-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S64x64 : Shape := ⟨2, ![64, 64]⟩
abbrev S192x64 : Shape := ⟨2, ![192, 64]⟩
abbrev S192 : Shape := ⟨1, ![192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S64x160 : S_.BroadcastsInDim S64x160 (![] : Fin 0 → Fin S64x160.rank)
  reducesTo_S64x160_S_d0_1 : S64x160.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192x64 .f32) (main_arg9 : FVec F S192 .f32) (main_arg10 : FVec F S192 .f32) (main_v33 : IVec S_ 1) : IVec S_ 1 :=
  let main_v34 : FVec F S192x64 .f32 := Host.absf main_arg8
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg9
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg10
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S192x64 .f32) (main_arg8 : FVec F S192x64 .f32) (main_arg9 : FVec F S192 .f32) (main_arg10 : FVec F S192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1000000 32) (main_arg2 : FVec F S1000000x32 .f32) (main_arg3 : FVec F S64x160 .f32) (main_arg4 : FVec F S64 .f32) (main_arg5 : FVec F S64x64 .f32) (main_arg6 : FVec F S64 .f32) (main_arg7 : FVec F S192x64 .f32) (main_arg8 : FVec F S192x64 .f32) (main_arg9 : FVec F S192 .f32) (main_arg10 : FVec F S192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x32 .f32 := Host.absf main_arg2
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S64x160 .f32 := Host.absf main_arg3
  let main_cst_2 : FVec F S_ .f32 := constant S_ .f32 0x7F800000#32
  let main_v10 : FVec F S64x160 .f32 := broadcastInDim S64x160 ![] bcast_S_S64x160 main_cst_2
  let main_v11 : IVec S64x160 1 := cmpf .olt main_v9 main_v10
  let main_c_3 : IVec S_ 1 := constantI S_ 1 1#1
  let main_v12 : IVec S_ 1 := (fun x v => Host.reduce IntOp.andi x v reducesTo_S64x160_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S64x64 : Shape := ⟨2, ![64, 64]⟩
abbrev S192x64 : Shape := ⟨2, ![192, 64]⟩
abbrev S192 : Shape := ⟨1, ![192]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S160x64 : Shape := ⟨2, ![160, 64]⟩
abbrev S32x64 : Shape := ⟨2, ![32, 64]⟩
abbrev S4000x64 : Shape := ⟨2, ![4000, 64]⟩
abbrev S4000x32 : Shape := ⟨2, ![4000, 32]⟩
abbrev S1x64 : Shape := ⟨2, ![1, 64]⟩
abbrev S64x192 : Shape := ⟨2, ![64, 192]⟩
abbrev S2000x64 : Shape := ⟨2, ![2000, 64]⟩

abbrev nBuf : Space → Nat
  | .hbm => 59
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x160, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S160x64, .f32⟩
  | .hbm, ⟨34, _⟩ => ⟨S64x64, .f32⟩
  | .hbm, ⟨35, _⟩ => ⟨S64x64, .f32⟩
  | .hbm, ⟨36, _⟩ => ⟨S32x64, .f32⟩
  | .hbm, ⟨37, _⟩ => ⟨S64x64, .f32⟩
  | .hbm, ⟨38, _⟩ => ⟨S1000000x64, .bf16⟩
  | .hbm, ⟨39, _⟩ => ⟨S1000000x64, .f32⟩
  | .hbm, ⟨40, _⟩ => ⟨S_, .f32⟩
  | .hbm, ⟨41, _⟩ => ⟨S100000x64, .f32⟩
  | .hbm, ⟨42, _⟩ => ⟨S1000000x1, .i32⟩
  | .hbm, ⟨43, _⟩ => ⟨S100000x64, .f32⟩
  | .hbm, ⟨44, _⟩ => ⟨S64x192, .f32⟩
  | .hbm, ⟨45, _⟩ => ⟨S64x192, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x32, .f32⟩
  | .local _ .vmem, ⟨5, _⟩ => ⟨S4000x32, .f32⟩
  | .local _ .vmem, ⟨6, _⟩ => ⟨S64x64, .f32⟩
  | .local _ .vmem, ⟨7, _⟩ => ⟨S64x64, .f32⟩
  | .local _ .vmem, ⟨8, _⟩ => ⟨S32x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S4000x64, .bf16⟩
  | .local _ .vmem, ⟨13, _⟩ => ⟨S4000x64, .bf16⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S64x64, .f32⟩
  | .local _ .vmem, ⟨22, _⟩ => ⟨S64x64, .f32⟩
  | .local _ .vmem, ⟨23, _⟩ => ⟨S64x64, .f32⟩
  | .local _ .vmem, ⟨24, _⟩ => ⟨S64, .f32⟩
  | .local _ .vmem, ⟨25, _⟩ => ⟨S64, .f32⟩
  | .local _ .vmem, ⟨26, _⟩ => ⟨S64, .f32⟩
  | .local _ .vmem, ⟨27, _⟩ => ⟨S64, .f32⟩
  | .local _ .vmem, ⟨28, _⟩ => ⟨S64, .f32⟩
  | .local _ .vmem, ⟨29, _⟩ => ⟨S64, .f32⟩
  | .local _ .vmem, ⟨30, _⟩ => ⟨S2000x64, .f32⟩
  | .local _ .vmem, ⟨31, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg14_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem14_1 : DmaSem sig := 31

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x160_S160x64_1_0 : S64x160.Transposes [1, 0] S160x64
  slices_S160x64_S64x64_0_0 : S160x64.Slices ![0, 0] S64x64
  slices_S160x64_S64x64_64_0 : S160x64.Slices ![64, 0] S64x64
  slices_S160x64_S32x64_128_0 : S160x64.Slices ![128, 0] S32x64
  transposes_S64x64_S64x64_1_0 : S64x64.Transposes [1, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  transposes_S192x64_S64x192_1_0 : S192x64.Transposes [1, 0] S64x192
  slices_S64x192_S64x64_0_0 : S64x192.Slices ![0, 0] S64x64
  slices_S64x192_S64x64_0_64 : S64x192.Slices ![0, 64] S64x64
  slices_S64x192_S64x64_0_128 : S64x192.Slices ![0, 128] S64x64
  slices_S192_S64_0 : S192.Slices ![0] S64
  slices_S192_S64_64 : S192.Slices ![64] S64
  slices_S192_S64_128 : S192.Slices ![128] S64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S64_S64 : S64.ShapeCasts S64
  broadcasts_S1x64_S2000x64 : S1x64.Broadcasts S2000x64
  gather_S100000x64_S1000000x1_S1000000x64_1_0_n_n_0_1_164_wf : GatherDims.WF S100000x64 S1000000x1 S1000000x64 [1] [0] [] [0] [] 1 ![1, 64]
  dot_S4000x64_S64x64_S4000x64_1_0_0_1_n_n_wf : DotDims.WF S4000x64 S64x64 S4000x64 [1] [0] [0] [1] [] []
  dot_S4000x32_S32x64_S4000x64_1_0_0_1_n_n_wf : DotDims.WF S4000x32 S32x64 S4000x64 [1] [0] [0] [1] [] []
  scatter_S100000x64_S1000000x1_S1000000x64_1_0_0_1_wf : ScatterDims.WF S100000x64 S1000000x1 S1000000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1000000x32.size a
  hwx0_2 : ∀ i : grid0.Coords, EltTy.bits .f32 = 32 ∨ (Rect.block (s := S1000000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S1000000x64.size a
  hwx0_9 : ∀ i : grid0.Coords, EltTy.bits .bf16 = 32 ∨ (Rect.block (s := S1000000x64) S4000x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64.size a ≤ S64.size a
  hwx1_12 : ∀ i : grid1.Coords, EltTy.bits .f32 = 32 ∨ (Rect.block (s := S64) S64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64.size a ≤ S64.size a
  hwx1_13 : ∀ i : grid1.Coords, EltTy.bits .f32 = 32 ∨ (Rect.block (s := S64) S64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x64.size a ≤ S100000x64.size a
  hwx1_14 : ∀ i : grid1.Coords, EltTy.bits .f32 = 32 ∨ (Rect.block (s := S100000x64) S2000x64.size (cc1_transform_14 i) (hinb1_14 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v39) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v40) S64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v41) S64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v42) S2000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x32 : Shape := ⟨2, ![1000000, 32]⟩
abbrev S64x160 : Shape := ⟨2, ![64, 160]⟩
abbrev S64 : Shape := ⟨1, ![64]⟩
abbrev S64x64 : Shape := ⟨2, ![64, 64]⟩
abbrev S192x64 : Shape := ⟨2, ![192, 64]⟩
abbrev S192 : Shape := ⟨1, ![192]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x160 : Shape := ⟨2, ![1000000, 160]⟩
abbrev S160x64 : Shape := ⟨2, ![160, 64]⟩
abbrev S1x64 : Shape := ⟨2, ![1, 64]⟩
abbrev S64x192 : Shape := ⟨2, ![64, 192]⟩
abbrev S100000x192 : Shape := ⟨2, ![100000, 192]⟩
abbrev S1x192 : Shape := ⟨2, ![1, 192]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x160, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S1000000x160, .f32⟩
  | .hbm, ⟨34, _⟩ => ⟨S160x64, .f32⟩
  | .hbm, ⟨35, _⟩ => ⟨S1000000x64, .f32⟩
  | .hbm, ⟨36, _⟩ => ⟨S1x64, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S1000000x64, .f32⟩
  | .hbm, ⟨41, _⟩ => ⟨S1000000x64, .f32⟩
  | .hbm, ⟨42, _⟩ => ⟨S64x64, .f32⟩
  | .hbm, ⟨43, _⟩ => ⟨S1000000x64, .f32⟩
  | .hbm, ⟨44, _⟩ => ⟨S1x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S100000x64, .f32⟩
  | .hbm, ⟨49, _⟩ => ⟨S1000000x1, .i32⟩
  | .hbm, ⟨50, _⟩ => ⟨S100000x64, .f32⟩
  | .hbm, ⟨51, _⟩ => ⟨S64x192, .f32⟩
  | .hbm, ⟨52, _⟩ => ⟨S100000x192, .f32⟩
  | .hbm, ⟨53, _⟩ => ⟨S1x192, .f32⟩
  | .hbm, ⟨54, _⟩ => ⟨S100000x192, .f32⟩
  | .hbm, ⟨55, _⟩ => ⟨S100000x192, .f32⟩
  | .hbm, ⟨56, _⟩ => ⟨S64x192, .f32⟩
  | .hbm, ⟨57, _⟩ => ⟨S100000x192, .f32⟩
  | .hbm, ⟨58, _⟩ => ⟨S1x192, .f32⟩
  | .hbm, ⟨59, _⟩ => ⟨S100000x192, .f32⟩
  | .hbm, ⟨60, _⟩ => ⟨S100000x192, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x32_S1000000x160_d1 : Shape.Concatenates [S1000000x64, S1000000x64, S1000000x32] S1000000x160 1
  transposes_S64x160_S160x64_1_0 : S64x160.Transposes [1, 0] S160x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S64x64_S64x64_1_0 : S64x64.Transposes [1, 0] S64x64
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  gather_S100000x64_S1000000x1_S1000000x64_1_0_n_n_0_1_164_wf : GatherDims.WF S100000x64 S1000000x1 S1000000x64 [1] [0] [] [0] [] 1 ![1, 64]
  dot_S1000000x160_S160x64_S1000000x64_1_0_0_1_n_n_wf : DotDims.WF S1000000x160 S160x64 S1000000x64 [1] [0] [0] [1] [] []
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  dot_S100000x64_S64x192_S100000x192_1_0_0_1_n_n_wf : DotDims.WF S100000x64 S64x192 S100000x192 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x160_S160x64_S1000000x64_1_0_0_1_n_n : DotDims S1000000x160 S160x64 S1000000x64 where
  lhsContracting := [1]
  rhsContracting := [0]
  lhsNonContracting := [0]
  rhsNonContracting := [1]
  lhsBatch := []
  rhsBatch := []
  wf := dot_S1000000x160_S160x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.KRun.lean ====
/-
  The kernel program's run with its result named.

  Every weakly fair execution of the program terminates without a fault; the state it ends in holds, at the result
  buffer, the contents the last segment boundary assigns to it — the second region's output array after all its
  write-backs — and every argument array as launched. The run is the four segments of the program (host operations, the
  message region, host operations, the update region) launched from the initial memory; the last thread state holds every
  unscoped buffer at the last boundary's contents, read against the final state.
-/
import proofs.«128147_j58059367907338_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments as launched. -/
theorem run_vals : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.Spec.lean ====
/-
  The mathematics both programs compute, index by index on the extended reals.

  One message-passing step on a graph of 100000 nodes and 1000000 edges. For an edge `e` with gathered endpoint
  rows `xs e`, `xd e` (64 features each) and its own 32 features `ef e`, the hidden layer is
  `hid e k = Σ_a xs(e,a)·W1(k,a) + Σ_a xd(e,a)·W1(k,64+a) + Σ_a ef(e,a)·W1(k,128+a) + b1 k` (the 160 columns of `W1` taken
  in their three slabs), the message is `msg e j = Σ_k max(hid e k, 0)·W2(j,k) + b2 j`. For a node `n` with state row
  `nf n` and aggregated messages `agg n`, the gated update has three affine maps per side, `lin x w b n g = Σ_k x(n,k)·w(g,k) + b g`
  at the gate rows `g = j, 64 + j, 128 + j`, the logistic `sig x = 1 / (1 + e^(-x))` and
  `new n j = (1 - z)·tanh(i_n + r·h_n) + z·nf(n,j)` with `r = sig(i_r + h_r)`, `z = sig(i_z + h_z)`.
  The words 0.0 and 1.0 stay as their bit patterns: both programs spell them the same way.
-/
import Idealize.ShloMosaic.PureOps.Ideal
import Idealize.ShloMosaic.Lib.ValueIdx

noncomputable section

namespace Cert.Spec

open Idealize.ShloMosaic Idealize.ShloMosaic.ValueIdx

/-- The f32 words 0.0 and 1.0 as extended reals, unevaluated. -/
abbrev zero : EReal := Ideal.ofBits .f32 0x00000000#32
abbrev one : EReal := Ideal.ofBits .f32 0x3F800000#32

/-- The three column slabs of the 160 input columns: source features, destination features, edge features. -/
abbrev lo (a : Fin 64) : Fin 160 := ⟨a.val, by omega⟩
abbrev mid (a : Fin 64) : Fin 160 := ⟨64 + a.val, by omega⟩
abbrev hi (a : Fin 32) : Fin 160 := ⟨128 + a.val, by omega⟩

/-- The three gate rows of the 192 stacked rows: reset, update, candidate. -/
abbrev g0 (j : Fin 64) : Fin 192 := ⟨j.val, by omega⟩
abbrev g1 (j : Fin 64) : Fin 192 := ⟨64 + j.val, by omega⟩
abbrev g2 (j : Fin 64) : Fin 192 := ⟨128 + j.val, by omega⟩

/-- A sum over the 160 columns is the sum over the three slabs, in any additive commutative monoid. -/
theorem sum_slabs {M : Type*} [AddCommMonoid M] (f : Fin 160 → M) :
    ∑ k : Fin 160, f k = (∑ a : Fin 64, f (lo a)) + (∑ a : Fin 64, f (mid a)) + ∑ a : Fin 32, f (hi a) := by
  change ∑ k : Fin (64 + 64 + 32), f k = _
  rw [Fin.sum_univ_add, Fin.sum_univ_add]
  rfl

variable (xs xd : (⟨2, ![1000000, 64]⟩ : Shape).Idx → EReal) (ef : (⟨2, ![1000000, 32]⟩ : Shape).Idx → EReal)
  (W1 : (⟨2, ![64, 160]⟩ : Shape).Idx → EReal) (b1 : (⟨1, ![64]⟩ : Shape).Idx → EReal)
  (W2 : (⟨2, ![64, 64]⟩ : Shape).Idx → EReal) (b2 : (⟨1, ![64]⟩ : Shape).Idx → EReal)

/-- The hidden layer of the message network at edge `e`, unit `k`, before the rectifier. -/
def hid (e : Fin 1000000) (k : Fin 64) : EReal :=
  ((∑ a : Fin 64, xs (ix2 e a) * W1 (ix2 k (lo a))) + (∑ a : Fin 64, xd (ix2 e a) * W1 (ix2 k (mid a)))
    + ∑ a : Fin 32, ef (ix2 e a) * W1 (ix2 k (hi a))) + b1 (ix1 k)

/-- The message of edge `e`, feature `j`. -/
def msgAt (e : Fin 1000000) (j : Fin 64) : EReal :=
  (∑ k : Fin 64, max (hid xs xd ef W1 b1 e k) zero * W2 (ix2 j k)) + b2 (ix1 j)

/-- All messages as one array. -/
def Msg : (⟨2, ![1000000, 64]⟩ : Shape).Idx → EReal := fun i => msgAt xs xd ef W1 b1 W2 b2 (i 0) (i 1)

variable (nf agg : (⟨2, ![100000, 64]⟩ : Shape).Idx → EReal)
  (wih whh : (⟨2, ![192, 64]⟩ : Shape).Idx → EReal) (bih bhh : (⟨1, ![192]⟩ : Shape).Idx → EReal)

/-- One affine map of the gated update: row `g` of the stacked weights against node `n`'s row of `x`, plus the bias. -/
def lin (x : (⟨2, ![100000, 64]⟩ : Shape).Idx → EReal) (w : (⟨2, ![192, 64]⟩ : Shape).Idx → EReal)
    (b : (⟨1, ![192]⟩ : Shape).Idx → EReal) (n : Fin 100000) (g : Fin 192) : EReal :=
  (∑ k : Fin 64, x (ix2 n k) * w (ix2 g k)) + b (ix1 g)

/-- The logistic function, spelt with the word 1.0. -/
def sig (x : EReal) : EReal := Ideal.div one (one + Ideal.exp (-x))

/-- The updated state of node `n`, feature `j`. -/
def gruAt (n : Fin 100000) (j : Fin 64) : EReal :=
  (one - sig (lin agg wih bih n (g1 j) + lin nf whh bhh n (g1 j)))
      * Ideal.tanh (lin agg wih bih n (g2 j)
          + sig (lin agg wih bih n (g0 j) + lin nf whh bhh n (g0 j)) * lin nf whh bhh n (g2 j))
    + sig (lin agg wih bih n (g1 j) + lin nf whh bhh n (g1 j)) * nf (ix2 n j)

/-- All updated states as one array. -/
def Gru : (⟨2, ![100000, 64]⟩ : Shape).Idx → EReal := fun i => gruAt nf agg wih whh bih bhh (i 0) (i 1)

end Cert.Spec

end
-- ==== Proof.K0Pay.lean ====
/-
  The message network's body at one row and one column of its 4000-edge block.

  The block's stored value is, at edge row p and feature q, the second layer Σ_k max(h(p,k), 0) · w2(k,q) + b2(q) over the
  hidden layer h(p,k) = ((Σ_a xs(p,a)·wa(a,k) + Σ_a xd(p,a)·wb(a,k)) + Σ_a ef(p,a)·wc(a,k)) + b1(k): each matrix product into a
  zero accumulator is its plain sum over the contracted axis, the changes of float format are the identity on the
  extended reals, a bias row cast to [1,64] and broadcast over the rows reads its entry at the column.
-/
import proofs.«128147_j58059367907338_2_alg».proof.Proof.Gen.KernelIdeal.Skeleton
import proofs.«128147_j58059367907338_2_alg».proof.Proof.LibMatmulRows
import proofs.«128147_j58059367907338_2_alg».proof.Proof.Spec
import Idealize.ShloMosaic.Lib.Pipeline.Value
import Idealize.ShloMosaic.Lib.ValueLayout

noncomputable section

namespace Cert.K0Pay

open Idealize.ShloMosaic Idealize.ShloMosaic.ValueIdx Cert.KernelIdeal Cert.KernelIdeal.Gen Cert.LibMatmulRows

/-! ## Which operand entries the two products' dimension numbers read -/

theorem dot_S4000x64_S64x64_S4000x64_1_0_0_1_n_n_l0 (i : S4000x64.Idx) (q : dot_S4000x64_S64x64_S4000x64_1_0_0_1_n_n.contr.Idx) : (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem dot_S4000x64_S64x64_S4000x64_1_0_0_1_n_n_l1 (i : S4000x64.Idx) (q : dot_S4000x64_S64x64_S4000x64_1_0_0_1_n_n.contr.Idx) : (dot_S4000x64_S64x64_S4000x64_1_0_0_1_n_n.lhsIdx i q 1).val = (q ⟨0, by decide⟩).val :=
  dot_S4000x64_S64x64_S4000x64_1_0_0_1_n_n.lhsIdx_val_of_single rfl i q
theorem dot_S4000x64_S64x64_S4000x64_1_0_0_1_n_n_r0 (i : S4000x64.Idx) (q : dot_S4000x64_S64x64_S4000x64_1_0_0_1_n_n.contr.Idx) : (dot_S4000x64_S64x64_S4000x64_1_0_0_1_n_n.rhsIdx i q 0).val = (q ⟨0, by decide⟩).val :=
  dot_S4000x64_S64x64_S4000x64_1_0_0_1_n_n.rhsIdx_val_of_single rfl i q
theorem dot_S4000x64_S64x64_S4000x64_1_0_0_1_n_n_r1 (i : S4000x64.Idx) (q : dot_S4000x64_S64x64_S4000x64_1_0_0_1_n_n.contr.Idx) : (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

theorem dot_S4000x32_S32x64_S4000x64_1_0_0_1_n_n_l0 (i : S4000x64.Idx) (q : dot_S4000x32_S32x64_S4000x64_1_0_0_1_n_n.contr.Idx) : (dot_S4000x32_S32x64_S4000x64_1_0_0_1_n_n.lhsIdx i q 0).val = (i 0).val := by
  unfold DotDims.lhsIdx
  rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
  rfl
theorem dot_S4000x32_S32x64_S4000x64_1_0_0_1_n_n_l1 (i : S4000x64.Idx) (q : dot_S4000x32_S32x64_S4000x64_1_0_0_1_n_n.contr.Idx) : (dot_S4000x32_S32x64_S4000x64_1_0_0_1_n_n.lhsIdx i q 1).val = (q ⟨0, by decide⟩).val :=
  dot_S4000x32_S32x64_S4000x64_1_0_0_1_n_n.lhsIdx_val_of_single rfl i q
theorem dot_S4000x32_S32x64_S4000x64_1_0_0_1_n_n_r0 (i : S4000x64.Idx) (q : dot_S4000x32_S32x64_S4000x64_1_0_0_1_n_n.contr.Idx) : (dot_S4000x32_S32x64_S4000x64_1_0_0_1_n_n.rhsIdx i q 0).val = (q ⟨0, by decide⟩).val :=
  dot_S4000x32_S32x64_S4000x64_1_0_0_1_n_n.rhsIdx_val_of_single rfl i q
theorem dot_S4000x32_S32x64_S4000x64_1_0_0_1_n_n_r1 (i : S4000x64.Idx) (q : dot_S4000x32_S32x64_S4000x64_1_0_0_1_n_n.contr.Idx) : (dot_S4000x32_S32x64_S4000x64_1_0_0_1_n_n.rhsIdx i q 1).val = (i 1).val := by
  unfold DotDims.rhsIdx
  rw [dif_neg (show ¬(1 : Fin S64x64.rank) ∈ dot_S4000x32_S32x64_S4000x64_1_0_0_1_n_n.rhsBatch by decide), dif_pos (show (1 : Fin S64x64.rank) ∈ dot_S4000x32_S32x64_S4000x64_1_0_0_1_n_n.rhsNonContracting by decide)]
  rfl

/-! ## The stored value at (p, q) -/

theorem pay0_apply (v0 v3 : Vec Ideal S4000x64 .f32) (v6 : Vec Ideal S4000x32 .f32) (v8 v11 : Vec Ideal S64x64 .f32)
    (v14 : Vec Ideal S32x64 .f32) (v22 : Vec Ideal S64 .f32) (v29 : Vec Ideal S64x64 .f32) (v33 : Vec Ideal S64 .f32)
    (p : Fin 4000) (q : Fin 64) :
    k0_pay1 (F := Ideal) v0 v3 v6 v8 v11 v14 v22 v29 v33 (ix2 p q)
      = (∑ k : Fin 64, max ((((∑ a : Fin 64, v0 (ix2 p a) * v8 (ix2 a k)) + ∑ a : Fin 64, v3 (ix2 p a) * v11 (ix2 a k))
            + ∑ a : Fin 32, v6 (ix2 p a) * v14 (ix2 a k)) + v22 (ix1 k)) Cert.Spec.zero * v29 (ix2 k q)) + v33 (ix1 q) := by
  unfold k0_pay1
  simp only [shapeCast_self, truncf_apply, addf_apply, maximumf_apply, broadcast_apply,
    matmul_zero_ix2 dot_S4000x64_S64x64_S4000x64_1_0_0_1_n_n rfl rfl dot_S4000x64_S64x64_S4000x64_1_0_0_1_n_n_l0
      dot_S4000x64_S64x64_S4000x64_1_0_0_1_n_n_l1 dot_S4000x64_S64x64_S4000x64_1_0_0_1_n_n_r0 dot_S4000x64_S64x64_S4000x64_1_0_0_1_n_n_r1,
    matmul_zero_ix2 dot_S4000x32_S32x64_S4000x64_1_0_0_1_n_n rfl rfl dot_S4000x32_S32x64_S4000x64_1_0_0_1_n_n_l0
      dot_S4000x32_S32x64_S4000x64_1_0_0_1_n_n_l1 dot_S4000x32_S32x64_S4000x64_1_0_0_1_n_n_r0 dot_S4000x32_S32x64_S4000x64_1_0_0_1_n_n_r1,
    broadcastTo_1b_ab_apply, shapeCast_a_1a_apply]
  rfl

end Cert.K0Pay

end
-- ==== Proof.K0Arr.lean ====
/-
  The message region's output array, whole.

  The region walks 250 grid points; point t stages rows 4000·t … 4000·t + 3999 of the two gathered feature arrays and
  of the edge features, the six weight and bias arrays whole, and writes back rows 4000·t … of the messages. What a
  point writes is the body's value of its blocks; read at (p, q) it is the specification's message of edge
  4000·t + p, feature q, because each staged block is the matching rows of its array and the weight windows hold the
  transposed slabs of the first layer and the transposed second layer. The 250 blocks tile the 1000000 rows, so the
  array after the region is the specification's message array.
-/
import proofs.«128147_j58059367907338_2_alg».proof.Proof.Gen.KernelIdeal.Frame
import proofs.«128147_j58059367907338_2_alg».proof.Proof.K0Pay
import proofs.«128147_j58059367907338_2_alg».proof.Proof.Spec
import Idealize.ShloMosaic.Lib.Pipeline.Value

set_option maxRecDepth 16384

noncomputable section

namespace Cert.K0Arr

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three edge-row windows and the output move with the point along the rows,
    every other window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem t_lt (t : Fin cfg0.N) : t.val < 250 := lt_of_lt_of_eq t.isLt N_0

/-- The edge that row p of point t's blocks is. -/
def row (t : Fin cfg0.N) (p : Fin 4000) : Fin 1000000 := ⟨t.val * 4000 + p.val, by have := t_lt t; omega⟩

variable (V : (c : Dev nD) → (b : Ref sig .tc) → Buf (Elt Ideal) ((c : Thread nD τ).loc b)) (c : Dev nD)

/-! ## Each staged block read at an entry -/

theorem read_0 (t : Fin cfg0.N) (p : Fin 4000) (a : Fin 64) : iblk0 V c 0 t (ix2 p a) = V c main_v10 (ix2 (row t p) a) := by
  obtain ⟨e0, e1, e2, e3, e4, e5, e6, e7, e8, e9, e10, e11, e12, e13, e14, e15, e16, e17⟩ := idx_facts t
  show V c main_v10 (((cfg0.win 0).blk t).view.emb (ix2 p a)) = _
  refine congrArg _ (funext fun x => Fin.ext ?_)
  match x with
  | ⟨0, _⟩ => show win0_0.index t (0 : Fin 2) * 4000 + 1 * p.val = t.val * 4000 + p.val; omega
  | ⟨1, _⟩ => show win0_0.index t (1 : Fin 2) * 64 + 1 * a.val = a.val; omega

theorem read_1 (t : Fin cfg0.N) (p : Fin 4000) (a : Fin 64) : iblk0 V c 1 t (ix2 p a) = V c main_v17 (ix2 (row t p) a) := by
  obtain ⟨e0, e1, e2, e3, e4, e5, e6, e7, e8, e9, e10, e11, e12, e13, e14, e15, e16, e17⟩ := idx_facts t
  show V c main_v17 (((cfg0.win 1).blk t).view.emb (ix2 p a)) = _
  refine congrArg _ (funext fun x => Fin.ext ?_)
  match x with
  | ⟨0, _⟩ => show win0_1.index t (0 : Fin 2) * 4000 + 1 * p.val = t.val * 4000 + p.val; omega
  | ⟨1, _⟩ => show win0_1.index t (1 : Fin 2) * 64 + 1 * a.val = a.val; omega

theorem read_2 (t : Fin cfg0.N) (p : Fin 4000) (a : Fin 32) : iblk0 V c 2 t (ix2 p a) = V c main_arg2 (ix2 (row t p) a) := by
  obtain ⟨e0, e1, e2, e3, e4, e5, e6, e7, e8, e9, e10, e11, e12, e13, e14, e15, e16, e17⟩ := idx_facts t
  show V c main_arg2 (((cfg0.win 2).blk t).view.emb (ix2 p a)) = _
  refine congrArg _ (funext fun x => Fin.ext ?_)
  match x with
  | ⟨0, _⟩ => show win0_2.index t (0 : Fin 2) * 4000 + 1 * p.val = t.val * 4000 + p.val; omega
  | ⟨1, _⟩ => show win0_2.index t (1 : Fin 2) * 32 + 1 * a.val = a.val; omega

theorem read_3 (t : Fin cfg0.N) (p : Fin 64) (a : Fin 64) : iblk0 V c 3 t (ix2 p a) = V c main_v19 (ix2 p a) := by
  obtain ⟨e0, e1, e2, e3, e4, e5, e6, e7, e8, e9, e10, e11, e12, e13, e14, e15, e16, e17⟩ := idx_facts t
  show V c main_v19 (((cfg0.win 3).blk t).view.emb (ix2 p a)) = _
  refine congrArg _ (funext fun x => Fin.ext ?_)
  match x with
  | ⟨0, _⟩ => show win0_3.index t (0 : Fin 2) * 64 + 1 * p.val = p.val; omega
  | ⟨1, _⟩ => show win0_3.index t (1 : Fin 2) * 64 + 1 * a.val = a.val; omega

theorem read_4 (t : Fin cfg0.N) (p : Fin 64) (a : Fin 64) : iblk0 V c 4 t (ix2 p a) = V c main_v20 (ix2 p a) := by
  obtain ⟨e0, e1, e2, e3, e4, e5, e6, e7, e8, e9, e10, e11, e12, e13, e14, e15, e16, e17⟩ := idx_facts t
  show V c main_v20 (((cfg0.win 4).blk t).view.emb (ix2 p a)) = _
  refine congrArg _ (funext fun x => Fin.ext ?_)
  match x with
  | ⟨0, _⟩ => show win0_4.index t (0 : Fin 2) * 64 + 1 * p.val = p.val; omega
  | ⟨1, _⟩ => show win0_4.index t (1 : Fin 2) * 64 + 1 * a.val = a.val; omega

theorem read_5 (t : Fin cfg0.N) (p : Fin 32) (a : Fin 64) : iblk0 V c 5 t (ix2 p a) = V c main_v21 (ix2 p a) := by
  obtain ⟨e0, e1, e2, e3, e4, e5, e6, e7, e8, e9, e10, e11, e12, e13, e14, e15, e16, e17⟩ := idx_facts t
  show V c main_v21 (((cfg0.win 5).blk t).view.emb (ix2 p a)) = _
  refine congrArg _ (funext fun x => Fin.ext ?_)
  match x with
  | ⟨0, _⟩ => show win0_5.index t (0 : Fin 2) * 32 + 1 * p.val = p.val; omega
  | ⟨1, _⟩ => show win0_5.index t (1 : Fin 2) * 64 + 1 * a.val = a.val; omega

theorem read_6 (t : Fin cfg0.N) (k : Fin 64) : iblk0 V c 6 t (ix1 k) = V c main_arg4 (ix1 k) := by
  obtain ⟨e0, e1, e2, e3, e4, e5, e6, e7, e8, e9, e10, e11, e12, e13, e14, e15, e16, e17⟩ := idx_facts t
  show V c main_arg4 (((cfg0.win 6).blk t).view.emb (ix1 k)) = _
  refine congrArg _ (funext fun x => Fin.ext ?_)
  match x with
  | ⟨0, _⟩ => show win0_6.index t (0 : Fin 1) * 64 + 1 * k.val = k.val; omega

theorem read_7 (t : Fin cfg0.N) (p : Fin 64) (a : Fin 64) : iblk0 V c 7 t (ix2 p a) = V c main_v22 (ix2 p a) := by
  obtain ⟨e0, e1, e2, e3, e4, e5, e6, e7, e8, e9, e10, e11, e12, e13, e14, e15, e16, e17⟩ := idx_facts t
  show V c main_v22 (((cfg0.win 7).blk t).view.emb (ix2 p a)) = _
  refine congrArg _ (funext fun x => Fin.ext ?_)
  match x with
  | ⟨0, _⟩ => show win0_7.index t (0 : Fin 2) * 64 + 1 * p.val = p.val; omega
  | ⟨1, _⟩ => show win0_7.index t (1 : Fin 2) * 64 + 1 * a.val = a.val; omega

theorem read_8 (t : Fin cfg0.N) (k : Fin 64) : iblk0 V c 8 t (ix1 k) = V c main_arg6 (ix1 k) := by
  obtain ⟨e0, e1, e2, e3, e4, e5, e6, e7, e8, e9, e10, e11, e12, e13, e14, e15, e16, e17⟩ := idx_facts t
  show V c main_arg6 (((cfg0.win 8).blk t).view.emb (ix1 k)) = _
  refine congrArg _ (funext fun x => Fin.ext ?_)
  match x with
  | ⟨0, _⟩ => show win0_8.index t (0 : Fin 1) * 64 + 1 * k.val = k.val; omega

/-- The array index of entry (p, q) of point t's output block. -/
theorem emb_9 (t : Fin cfg0.N) (p : Fin 4000) (q : Fin 64) : ((cfg0.win 9).blk t).view.emb (ix2 p q) = ix2 (row t p) q := by
  obtain ⟨e0, e1, e2, e3, e4, e5, e6, e7, e8, e9, e10, e11, e12, e13, e14, e15, e16, e17⟩ := idx_facts t
  refine funext fun x => Fin.ext ?_
  match x with
  | ⟨0, _⟩ => show win0_9.index t (0 : Fin 2) * 4000 + 1 * p.val = t.val * 4000 + p.val; omega
  | ⟨1, _⟩ => show win0_9.index t (1 : Fin 2) * 64 + 1 * q.val = q.val; omega

/-! ## What a point writes back, and the whole array -/

variable (W1 : (⟨2, ![64, 160]⟩ : Shape).Idx → EReal) (W2 : (⟨2, ![64, 64]⟩ : Shape).Idx → EReal)
  (h3 : ∀ (a k : Fin 64), V c main_v19 (ix2 a k) = W1 (ix2 k (lo a)))
  (h4 : ∀ (a k : Fin 64), V c main_v20 (ix2 a k) = W1 (ix2 k (mid a)))
  (h5 : ∀ (a : Fin 32) (k : Fin 64), V c main_v21 (ix2 a k) = W1 (ix2 k (hi a)))
  (h7 : ∀ (k q : Fin 64), V c main_v22 (ix2 k q) = W2 (ix2 q k))

include h3 h4 h5 h7 in
/-- Point t writes back block t of the specification's messages, of the arrays as the region finds them. -/
theorem flushed0_eq (t : Fin cfg0.N) :
    (dat0 V c).flushed 9 t = ((cfg0.win 9).blk t).view.read (Elt Ideal)
      (Msg (V c main_v10) (V c main_v17) (V c main_arg2) W1 (V c main_arg4) W2 (V c main_arg6)) := by
  show (cfg0.win 9).cut (grid0.coords t) ((dat0 V c).after 9 t) = _
  rw [after0_9]
  unfold out0_9
  rw [View.canon_unit_zero hz2]
  simp only [View.ld_unit_zero (S := S4000x64) hz2, View.ld_unit_zero (S := S4000x32) hz2, View.ld_unit_zero (S := S64x64) hz2,
    View.ld_unit_zero (S := S32x64) hz2, View.ld_unit_zero (S := S64) hz1]
  funext j
  obtain ⟨p, q, rfl⟩ : ∃ (p : Fin 4000) (q : Fin 64), j = ix2 p q := ⟨j 0, j 1, eq_ix2 j⟩
  refine (Cert.K0Pay.pay0_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  rw [View.read_apply, emb_9]
  show _ = msgAt (V c main_v10) (V c main_v17) (V c main_arg2) W1 (V c main_arg4) W2 (V c main_arg6) (row t p) q
  unfold msgAt hid
  simp only [read_0 V c, read_1 V c, read_2 V c, read_3 V c, read_4 V c, read_5 V c, read_6 V c, read_7 V c, read_8 V c, h3, h4, h5, h7]

/-- An index of the message array is in point t's block iff each coordinate is in the block's range on its axis. -/
theorem mem_blk (t : Fin cfg0.N) (i : S1000000x64.Idx) :
    i ∈ ((cfg0.win 9).blk t).view.set ↔ ∀ a : Fin 2, win0_9.index t a * S4000x64.size a ≤ (i a).val ∧ (i a).val < win0_9.index t a * S4000x64.size a + S4000x64.size a := by
  show i ∈ ((View.whole main_v23).slice (win0_9.rect t)).set ↔ _
  rw [View.set_slice_whole, Rect.mem_set_unit]
  exact Iff.rfl

/-- Every edge row lies in the block of the point that is its quotient by 4000. -/
theorem cover (i : S1000000x64.Idx) : ∃ t : Fin cfg0.N, (cfg0.win 9).flush t = true ∧ i ∈ ((cfg0.win 9).blk t).view.set := by
  have hi0 : (i 0).val < 1000000 := (i 0).isLt
  have hi1 : (i 1).val < 64 := (i 1).isLt
  have hq : (i 0).val / 4000 < 250 := by omega
  obtain ⟨e0, e1, e2, e3, e4, e5, e6, e7, e8, e9, e10, e11, e12, e13, e14, e15, e16, e17⟩ :=
    idx_facts ⟨(i 0).val / 4000, lt_of_lt_of_eq hq N_0.symm⟩
  refine ⟨⟨(i 0).val / 4000, lt_of_lt_of_eq hq N_0.symm⟩, flush0_9 _, ?_⟩
  rw [mem_blk]
  intro a
  have e16' : win0_9.index ⟨(i 0).val / 4000, lt_of_lt_of_eq hq N_0.symm⟩ (0 : Fin 2) = (i 0).val / 4000 := e16
  match a with
  | ⟨0, _⟩ =>
    show win0_9.index ⟨(i 0).val / 4000, lt_of_lt_of_eq hq N_0.symm⟩ (0 : Fin 2) * 4000 ≤ (i 0).val
      ∧ (i 0).val < win0_9.index ⟨(i 0).val / 4000, lt_of_lt_of_eq hq N_0.symm⟩ (0 : Fin 2) * 4000 + 4000
    omega
  | ⟨1, _⟩ =>
    show win0_9.index ⟨(i 0).val / 4000, lt_of_lt_of_eq hq N_0.symm⟩ (1 : Fin 2) * 64 ≤ (i 1).val
      ∧ (i 1).val < win0_9.index ⟨(i 0).val / 4000, lt_of_lt_of_eq hq N_0.symm⟩ (1 : Fin 2) * 64 + 64
    omega

include h3 h4 h5 h7 in
/-- The message array after the region is the specification's, of the arrays as the region finds them. -/
theorem final0 : (dat0 V c).arrAt 9 cfg0.N
    = Msg (V c main_v10) (V c main_v17) (V c main_arg2) W1 (V c main_arg4) W2 (V c main_arg6) :=
  (dat0 V c).arrAt_eq_of_cover 9 _ (fun t _ => flushed0_eq V c W1 W2 h3 h4 h5 h7 t) cover

end Cert.K0Arr

end
-- ==== Proof.K1Pay.lean ====
/-
  The gated update's body at one row and one column of its 2000-node block.

  With the six affine maps of the block, lin x w b (p, q) = Σ_k x(p,k) · w(k,q) + b(q) — the aggregated messages against
  the three input-gate slabs, the node states against the three hidden-gate slabs, each product into a zero accumulator
  its plain sum, each bias row broadcast over the rows — the stored value at (p, q) is
  (1 - z) · tanh(i_n + r · h_n) + z · nf(p,q) with r = sig(i_r + h_r), z = sig(i_z + h_z); the body's logistic is the
  function 1 / (1 + e^(-x)), which is the specification's sig once the word 1.0 is read as the number one.
-/
import proofs.«128147_j58059367907338_2_alg».proof.Proof.Gen.KernelIdeal.Skeleton
import proofs.«128147_j58059367907338_2_alg».proof.Proof.LibMatmulRows
import proofs.«128147_j58059367907338_2_alg».proof.Proof.Spec
import Idealize.ShloMosaic.Lib.Pipeline.Value
import Idealize.ShloMosaic.Lib.ValueLayout
import Idealize.ShloMosaic.Lib.IdealHost

noncomputable section

namespace Cert.K1Pay

open Idealize.ShloMosaic Idealize.ShloMosaic.ValueIdx Cert.KernelIdeal Cert.KernelIdeal.Gen Cert.LibMatmulRows

/-! ## Which operand entries the products' dimension numbers read -/

theorem dot_S2000x64_S64x64_S2000x64_1_0_0_1_n_n_l0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem dot_S2000x64_S64x64_S2000x64_1_0_0_1_n_n_l1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem dot_S2000x64_S64x64_S2000x64_1_0_0_1_n_n_r0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem dot_S2000x64_S64x64_S2000x64_1_0_0_1_n_n_r1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- One affine map of the block: row p of x against column q of w, plus the bias at q. -/
def klin (x : Vec Ideal S2000x64 .f32) (w : Vec Ideal S64x64 .f32) (b : Vec Ideal S64 .f32) (p : Fin 2000) (q : Fin 64) : EReal :=
  (∑ k : Fin 64, x (ix2 p k) * w (ix2 k q)) + b (ix1 q)

/-- The logistic of the extended reals is the specification's, the word 1.0 being the number one. -/
theorem logistic_eq_sig (x : EReal) : FloatOps.logistic (F := Ideal) (φ := .f32) x = Cert.Spec.sig x := by
  show Ideal.div 1 (1 + Ideal.exp (-x)) = Ideal.div Cert.Spec.one (Cert.Spec.one + Ideal.exp (-x))
  rw [show Cert.Spec.one = (1 : EReal) from Ideal.ofBits_one_f32]

theorem logistic_apply {s : Shape} (a : FVec Ideal s .f32) (i : s.Idx) : logistic a i = FloatOps.logistic (a i) := rfl
theorem tanh_apply {s : Shape} (a : FVec Ideal s .f32) (i : s.Idx) : tanh a i = Ideal.tanh (a i) := rfl

/-! ## The stored value at (p, q) -/

theorem pay1_apply (x0 x1 : Vec Ideal S2000x64 .f32) (x2 x3 x4 x5 x6 x7 : Vec Ideal S64x64 .f32)
    (x8 x9 x10 x11 x12 x13 : Vec Ideal S64 .f32) (p : Fin 2000) (q : Fin 64) :
    k1_pay1 (F := Ideal) x0 (k1_pay3 x0) (k1_pay4 x1 x2 x8) (k1_pay5 x1 x3 x9) (k1_pay6 x1 x4 x10) (k1_pay7 x0 x5) (k1_pay8 x11)
        x6 x12 x7 x13 (ix2 p q)
      = (Cert.Spec.one - Cert.Spec.sig (klin x1 x3 x9 p q + klin x0 x6 x12 p q))
          * Ideal.tanh (klin x1 x4 x10 p q + Cert.Spec.sig (klin x1 x2 x8 p q + klin x0 x5 x11 p q) * klin x0 x7 x13 p q)
        + Cert.Spec.sig (klin x1 x3 x9 p q + klin x0 x6 x12 p q) * x0 (ix2 p q) := by
  unfold k1_pay1 k1_pay3 k1_pay4 k1_pay5 k1_pay6 k1_pay7 k1_pay8 k1_pay2 klin
  simp only [shapeCast_self, truncf_apply, addf_apply, mulf_apply, subf_apply, broadcast_apply, logistic_apply, tanh_apply,
    matmul_zero_ix2 dot_S2000x64_S64x64_S2000x64_1_0_0_1_n_n rfl rfl dot_S2000x64_S64x64_S2000x64_1_0_0_1_n_n_l0 dot_S2000x64_S64x64_S2000x64_1_0_0_1_n_n_l1 dot_S2000x64_S64x64_S2000x64_1_0_0_1_n_n_r0 dot_S2000x64_S64x64_S2000x64_1_0_0_1_n_n_r1,
    broadcastTo_1b_ab_apply, shapeCast_a_1a_apply, logistic_eq_sig]
  rfl

end Cert.K1Pay

end
-- ==== Proof.K1Arr.lean ====
/-
  The update region's output array, whole.

  The region walks 50 grid points; point t stages rows 2000·t … 2000·t + 1999 of the node states and of the aggregated
  messages, the six gate slabs and six bias slabs whole, and writes back the same rows of the new states. What a point
  writes, read at (p, q), is the specification's new state of node 2000·t + p, feature q: the staged rows are the
  matching rows of their arrays, and the slab windows hold the transposed gate rows q, 64 + q, 128 + q of the stacked
  weights and the matching entries of the stacked biases. The 50 blocks tile the 100000 rows.
-/
import proofs.«128147_j58059367907338_2_alg».proof.Proof.Gen.KernelIdeal.Frame
import proofs.«128147_j58059367907338_2_alg».proof.Proof.K1Pay
import proofs.«128147_j58059367907338_2_alg».proof.Proof.Spec
import Idealize.ShloMosaic.Lib.Pipeline.Value

set_option maxRecDepth 16384

noncomputable section

namespace Cert.K1Arr

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two node-row windows and the output move with the point along the rows,
    every slab window stays at its one block. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 1) = 0
    ∧ win1_9.index t (0 : Fin 1) = 0
    ∧ win1_10.index t (0 : Fin 1) = 0
    ∧ win1_11.index t (0 : Fin 1) = 0
    ∧ win1_12.index t (0 : Fin 1) = 0
    ∧ win1_13.index t (0 : Fin 1) = 0
    ∧ win1_14.index t (0 : Fin 2) = t.val
    ∧ win1_14.index t (1 : Fin 2) = 0 :=
  (by decide +kernel : ∀ t : Fin grid1.N, _)

theorem t_lt (t : Fin cfg1.N) : t.val < 50 := lt_of_lt_of_eq t.isLt N_1

/-- The node that row p of point t's blocks is. -/
def row (t : Fin cfg1.N) (p : Fin 2000) : Fin 100000 := ⟨t.val * 2000 + p.val, by have := t_lt t; omega⟩

variable (V : (c : Dev nD) → (b : Ref sig .tc) → Buf (Elt Ideal) ((c : Thread nD τ).loc b)) (c : Dev nD)

/-! ## Each staged block read at an entry -/

theorem read_0 (t : Fin cfg1.N) (p : Fin 2000) (a : Fin 64) : iblk1 V c 0 t (ix2 p a) = V c main_arg0 (ix2 (row t p) a) := by
  obtain ⟨e0, e1, e2, e3, e4, e5, e6, e7, e8, e9, e10, e11, e12, e13, e14, e15, e16, e17, e18, e19, e20, e21, e22, e23⟩ := idx_facts t
  show V c main_arg0 (((cfg1.win 0).blk t).view.emb (ix2 p a)) = _
  refine congrArg _ (funext fun x => Fin.ext ?_)
  match x with
  | ⟨0, _⟩ => show win1_0.index t (0 : Fin 2) * 2000 + 1 * p.val = t.val * 2000 + p.val; omega
  | ⟨1, _⟩ => show win1_0.index t (1 : Fin 2) * 64 + 1 * a.val = a.val; omega

theorem read_1 (t : Fin cfg1.N) (p : Fin 2000) (a : Fin 64) : iblk1 V c 1 t (ix2 p a) = V c main_v27 (ix2 (row t p) a) := by
  obtain ⟨e0, e1, e2, e3, e4, e5, e6, e7, e8, e9, e10, e11, e12, e13, e14, e15, e16, e17, e18, e19, e20, e21, e22, e23⟩ := idx_facts t
  show V c main_v27 (((cfg1.win 1).blk t).view.emb (ix2 p a)) = _
  refine congrArg _ (funext fun x => Fin.ext ?_)
  match x with
  | ⟨0, _⟩ => show win1_1.index t (0 : Fin 2) * 2000 + 1 * p.val = t.val * 2000 + p.val; omega
  | ⟨1, _⟩ => show win1_1.index t (1 : Fin 2) * 64 + 1 * a.val = a.val; omega

theorem read_2 (t : Fin cfg1.N) (p : Fin 64) (a : Fin 64) : iblk1 V c 2 t (ix2 p a) = V c main_v30 (ix2 p a) := by
  obtain ⟨e0, e1, e2, e3, e4, e5, e6, e7, e8, e9, e10, e11, e12, e13, e14, e15, e16, e17, e18, e19, e20, e21, e22, e23⟩ := idx_facts t
  show V c main_v30 (((cfg1.win 2).blk t).view.emb (ix2 p a)) = _
  refine congrArg _ (funext fun x => Fin.ext ?_)
  match x with
  | ⟨0, _⟩ => show win1_2.index t (0 : Fin 2) * 64 + 1 * p.val = p.val; omega
  | ⟨1, _⟩ => show win1_2.index t (1 : Fin 2) * 64 + 1 * a.val = a.val; omega

theorem read_3 (t : Fin cfg1.N) (p : Fin 64) (a : Fin 64) : iblk1 V c 3 t (ix2 p a) = V c main_v31 (ix2 p a) := by
  obtain ⟨e0, e1, e2, e3, e4, e5, e6, e7, e8, e9, e10, e11, e12, e13, e14, e15, e16, e17, e18, e19, e20, e21, e22, e23⟩ := idx_facts t
  show V c main_v31 (((cfg1.win 3).blk t).view.emb (ix2 p a)) = _
  refine congrArg _ (funext fun x => Fin.ext ?_)
  match x with
  | ⟨0, _⟩ => show win1_3.index t (0 : Fin 2) * 64 + 1 * p.val = p.val; omega
  | ⟨1, _⟩ => show win1_3.index t (1 : Fin 2) * 64 + 1 * a.val = a.val; omega

theorem read_4 (t : Fin cfg1.N) (p : Fin 64) (a : Fin 64) : iblk1 V c 4 t (ix2 p a) = V c main_v32 (ix2 p a) := by
  obtain ⟨e0, e1, e2, e3, e4, e5, e6, e7, e8, e9, e10, e11, e12, e13, e14, e15, e16, e17, e18, e19, e20, e21, e22, e23⟩ := idx_facts t
  show V c main_v32 (((cfg1.win 4).blk t).view.emb (ix2 p a)) = _
  refine congrArg _ (funext fun x => Fin.ext ?_)
  match x with
  | ⟨0, _⟩ => show win1_4.index t (0 : Fin 2) * 64 + 1 * p.val = p.val; omega
  | ⟨1, _⟩ => show win1_4.index t (1 : Fin 2) * 64 + 1 * a.val = a.val; omega

theorem read_5 (t : Fin cfg1.N) (p : Fin 64) (a : Fin 64) : iblk1 V c 5 t (ix2 p a) = V c main_v33 (ix2 p a) := by
  obtain ⟨e0, e1, e2, e3, e4, e5, e6, e7, e8, e9, e10, e11, e12, e13, e14, e15, e16, e17, e18, e19, e20, e21, e22, e23⟩ := idx_facts t
  show V c main_v33 (((cfg1.win 5).blk t).view.emb (ix2 p a)) = _
  refine congrArg _ (funext fun x => Fin.ext ?_)
  match x with
  | ⟨0, _⟩ => show win1_5.index t (0 : Fin 2) * 64 + 1 * p.val = p.val; omega
  | ⟨1, _⟩ => show win1_5.index t (1 : Fin 2) * 64 + 1 * a.val = a.val; omega

theorem read_6 (t : Fin cfg1.N) (p : Fin 64) (a : Fin 64) : iblk1 V c 6 t (ix2 p a) = V c main_v34 (ix2 p a) := by
  obtain ⟨e0, e1, e2, e3, e4, e5, e6, e7, e8, e9, e10, e11, e12, e13, e14, e15, e16, e17, e18, e19, e20, e21, e22, e23⟩ := idx_facts t
  show V c main_v34 (((cfg1.win 6).blk t).view.emb (ix2 p a)) = _
  refine congrArg _ (funext fun x => Fin.ext ?_)
  match x with
  | ⟨0, _⟩ => show win1_6.index t (0 : Fin 2) * 64 + 1 * p.val = p.val; omega
  | ⟨1, _⟩ => show win1_6.index t (1 : Fin 2) * 64 + 1 * a.val = a.val; omega

theorem read_7 (t : Fin cfg1.N) (p : Fin 64) (a : Fin 64) : iblk1 V c 7 t (ix2 p a) = V c main_v35 (ix2 p a) := by
  obtain ⟨e0, e1, e2, e3, e4, e5, e6, e7, e8, e9, e10, e11, e12, e13, e14, e15, e16, e17, e18, e19, e20, e21, e22, e23⟩ := idx_facts t
  show V c main_v35 (((cfg1.win 7).blk t).view.emb (ix2 p a)) = _
  refine congrArg _ (funext fun x => Fin.ext ?_)
  match x with
  | ⟨0, _⟩ => show win1_7.index t (0 : Fin 2) * 64 + 1 * p.val = p.val; omega
  | ⟨1, _⟩ => show win1_7.index t (1 : Fin 2) * 64 + 1 * a.val = a.val; omega

theorem read_8 (t : Fin cfg1.N) (k : Fin 64) : iblk1 V c 8 t (ix1 k) = V c main_v36 (ix1 k) := by
  obtain ⟨e0, e1, e2, e3, e4, e5, e6, e7, e8, e9, e10, e11, e12, e13, e14, e15, e16, e17, e18, e19, e20, e21, e22, e23⟩ := idx_facts t
  show V c main_v36 (((cfg1.win 8).blk t).view.emb (ix1 k)) = _
  refine congrArg _ (funext fun x => Fin.ext ?_)
  match x with
  | ⟨0, _⟩ => show win1_8.index t (0 : Fin 1) * 64 + 1 * k.val = k.val; omega

theorem read_9 (t : Fin cfg1.N) (k : Fin 64) : iblk1 V c 9 t (ix1 k) = V c main_v37 (ix1 k) := by
  obtain ⟨e0, e1, e2, e3, e4, e5, e6, e7, e8, e9, e10, e11, e12, e13, e14, e15, e16, e17, e18, e19, e20, e21, e22, e23⟩ := idx_facts t
  show V c main_v37 (((cfg1.win 9).blk t).view.emb (ix1 k)) = _
  refine congrArg _ (funext fun x => Fin.ext ?_)
  match x with
  | ⟨0, _⟩ => show win1_9.index t (0 : Fin 1) * 64 + 1 * k.val = k.val; omega

theorem read_10 (t : Fin cfg1.N) (k : Fin 64) : iblk1 V c 10 t (ix1 k) = V c main_v38 (ix1 k) := by
  obtain ⟨e0, e1, e2, e3, e4, e5, e6, e7, e8, e9, e10, e11, e12, e13, e14, e15, e16, e17, e18, e19, e20, e21, e22, e23⟩ := idx_facts t
  show V c main_v38 (((cfg1.win 10).blk t).view.emb (ix1 k)) = _
  refine congrArg _ (funext fun x => Fin.ext ?_)
  match x with
  | ⟨0, _⟩ => show win1_10.index t (0 : Fin 1) * 64 + 1 * k.val = k.val; omega

theorem read_11 (t : Fin cfg1.N) (k : Fin 64) : iblk1 V c 11 t (ix1 k) = V c main_v39 (ix1 k) := by
  obtain ⟨e0, e1, e2, e3, e4, e5, e6, e7, e8, e9, e10, e11, e12, e13, e14, e15, e16, e17, e18, e19, e20, e21, e22, e23⟩ := idx_facts t
  show V c main_v39 (((cfg1.win 11).blk t).view.emb (ix1 k)) = _
  refine congrArg _ (funext fun x => Fin.ext ?_)
  match x with
  | ⟨0, _⟩ => show win1_11.index t (0 : Fin 1) * 64 + 1 * k.val = k.val; omega

theorem read_12 (t : Fin cfg1.N) (k : Fin 64) : iblk1 V c 12 t (ix1 k) = V c main_v40 (ix1 k) := by
  obtain ⟨e0, e1, e2, e3, e4, e5, e6, e7, e8, e9, e10, e11, e12, e13, e14, e15, e16, e17, e18, e19, e20, e21, e22, e23⟩ := idx_facts t
  show V c main_v40 (((cfg1.win 12).blk t).view.emb (ix1 k)) = _
  refine congrArg _ (funext fun x => Fin.ext ?_)
  match x with
  | ⟨0, _⟩ => show win1_12.index t (0 : Fin 1) * 64 + 1 * k.val = k.val; omega

theorem read_13 (t : Fin cfg1.N) (k : Fin 64) : iblk1 V c 13 t (ix1 k) = V c main_v41 (ix1 k) := by
  obtain ⟨e0, e1, e2, e3, e4, e5, e6, e7, e8, e9, e10, e11, e12, e13, e14, e15, e16, e17, e18, e19, e20, e21, e22, e23⟩ := idx_facts t
  show V c main_v41 (((cfg1.win 13).blk t).view.emb (ix1 k)) = _
  refine congrArg _ (funext fun x => Fin.ext ?_)
  match x with
  | ⟨0, _⟩ => show win1_13.index t (0 : Fin 1) * 64 + 1 * k.val = k.val; omega

/-- The array index of entry (p, q) of point t's output block. -/
theorem emb_14 (t : Fin cfg1.N) (p : Fin 2000) (q : Fin 64) : ((cfg1.win 14).blk t).view.emb (ix2 p q) = ix2 (row t p) q := by
  obtain ⟨e0, e1, e2, e3, e4, e5, e6, e7, e8, e9, e10, e11, e12, e13, e14, e15, e16, e17, e18, e19, e20, e21, e22, e23⟩ := idx_facts t
  refine funext fun x => Fin.ext ?_
  match x with
  | ⟨0, _⟩ => show win1_14.index t (0 : Fin 2) * 2000 + 1 * p.val = t.val * 2000 + p.val; omega
  | ⟨1, _⟩ => show win1_14.index t (1 : Fin 2) * 64 + 1 * q.val = q.val; omega

/-! ## What a point writes back, and the whole array -/

variable (wih whh : (⟨2, ![192, 64]⟩ : Shape).Idx → EReal) (bih bhh : (⟨1, ![192]⟩ : Shape).Idx → EReal)
  (h2 : ∀ (k q : Fin 64), V c main_v30 (ix2 k q) = wih (ix2 (g0 q) k))
  (h3 : ∀ (k q : Fin 64), V c main_v31 (ix2 k q) = wih (ix2 (g1 q) k))
  (h4 : ∀ (k q : Fin 64), V c main_v32 (ix2 k q) = wih (ix2 (g2 q) k))
  (h5 : ∀ (k q : Fin 64), V c main_v33 (ix2 k q) = whh (ix2 (g0 q) k))
  (h6 : ∀ (k q : Fin 64), V c main_v34 (ix2 k q) = whh (ix2 (g1 q) k))
  (h7 : ∀ (k q : Fin 64), V c main_v35 (ix2 k q) = whh (ix2 (g2 q) k))
  (h8 : ∀ (q : Fin 64), V c main_v36 (ix1 q) = bih (ix1 (g0 q)))
  (h9 : ∀ (q : Fin 64), V c main_v37 (ix1 q) = bih (ix1 (g1 q)))
  (h10 : ∀ (q : Fin 64), V c main_v38 (ix1 q) = bih (ix1 (g2 q)))
  (h11 : ∀ (q : Fin 64), V c main_v39 (ix1 q) = bhh (ix1 (g0 q)))
  (h12 : ∀ (q : Fin 64), V c main_v40 (ix1 q) = bhh (ix1 (g1 q)))
  (h13 : ∀ (q : Fin 64), V c main_v41 (ix1 q) = bhh (ix1 (g2 q)))

include h2 h3 h4 h5 h6 h7 h8 h9 h10 h11 h12 h13 in
/-- Point t writes back block t of the specification's new states, of the arrays as the region finds them. -/
theorem flushed1_eq (t : Fin cfg1.N) :
    (dat1 V c).flushed 14 t = ((cfg1.win 14).blk t).view.read (Elt Ideal)
      (Gru (V c main_arg0) (V c main_v27) wih whh bih bhh) := by
  show (cfg1.win 14).cut (grid1.coords t) ((dat1 V c).after 14 t) = _
  rw [after1_14]
  unfold out1_14
  rw [View.canon_unit_zero hz2]
  simp only [View.ld_unit_zero (S := S2000x64) hz2, View.ld_unit_zero (S := S64x64) hz2, View.ld_unit_zero (S := S64) hz1]
  funext j
  obtain ⟨p, q, rfl⟩ : ∃ (p : Fin 2000) (q : Fin 64), j = ix2 p q := ⟨j 0, j 1, eq_ix2 j⟩
  refine (Cert.K1Pay.pay1_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t)
    (iblk1 V c 13 t) p q).trans ?_
  rw [View.read_apply, emb_14]
  show _ = gruAt (V c main_arg0) (V c main_v27) wih whh bih bhh (row t p) q
  unfold gruAt lin Cert.K1Pay.klin
  simp only [read_0 V c, read_1 V c, read_2 V c, read_3 V c, read_4 V c, read_5 V c, read_6 V c, read_7 V c, read_8 V c,
    read_9 V c, read_10 V c, read_11 V c, read_12 V c, read_13 V c, h2, h3, h4, h5, h6, h7, h8, h9, h10, h11, h12, h13]

/-- An index of the state array is in point t's block iff each coordinate is in the block's range on its axis. -/
theorem mem_blk (t : Fin cfg1.N) (i : S100000x64.Idx) :
    i ∈ ((cfg1.win 14).blk t).view.set ↔ ∀ a : Fin 2, win1_14.index t a * S2000x64.size a ≤ (i a).val ∧ (i a).val < win1_14.index t a * S2000x64.size a + S2000x64.size a := by
  show i ∈ ((View.whole main_v42).slice (win1_14.rect t)).set ↔ _
  rw [View.set_slice_whole, Rect.mem_set_unit]
  exact Iff.rfl

/-- Every node row lies in the block of the point that is its quotient by 2000. -/
theorem cover (i : S100000x64.Idx) : ∃ t : Fin cfg1.N, (cfg1.win 14).flush t = true ∧ i ∈ ((cfg1.win 14).blk t).view.set := by
  have hi0 : (i 0).val < 100000 := (i 0).isLt
  have hi1 : (i 1).val < 64 := (i 1).isLt
  have hq : (i 0).val / 2000 < 50 := by omega
  obtain ⟨e0, e1, e2, e3, e4, e5, e6, e7, e8, e9, e10, e11, e12, e13, e14, e15, e16, e17, e18, e19, e20, e21, e22, e23⟩ := idx_facts ⟨(i 0).val / 2000, lt_of_lt_of_eq hq N_1.symm⟩
  refine ⟨⟨(i 0).val / 2000, lt_of_lt_of_eq hq N_1.symm⟩, flush1_14 _, ?_⟩
  rw [mem_blk]
  intro a
  have e22' : win1_14.index ⟨(i 0).val / 2000, lt_of_lt_of_eq hq N_1.symm⟩ (0 : Fin 2) = (i 0).val / 2000 := e22
  match a with
  | ⟨0, _⟩ =>
    show win1_14.index ⟨(i 0).val / 2000, lt_of_lt_of_eq hq N_1.symm⟩ (0 : Fin 2) * 2000 ≤ (i 0).val
      ∧ (i 0).val < win1_14.index ⟨(i 0).val / 2000, lt_of_lt_of_eq hq N_1.symm⟩ (0 : Fin 2) * 2000 + 2000
    omega
  | ⟨1, _⟩ =>
    show win1_14.index ⟨(i 0).val / 2000, lt_of_lt_of_eq hq N_1.symm⟩ (1 : Fin 2) * 64 ≤ (i 1).val
      ∧ (i 1).val < win1_14.index ⟨(i 0).val / 2000, lt_of_lt_of_eq hq N_1.symm⟩ (1 : Fin 2) * 64 + 64
    omega

include h2 h3 h4 h5 h6 h7 h8 h9 h10 h11 h12 h13 in
/-- The state array after the region is the specification's, of the arrays as the region finds them. -/
theorem final1 : (dat1 V c).arrAt 14 cfg1.N = Gru (V c main_arg0) (V c main_v27) wih whh bih bhh :=
  (dat1 V c).arrAt_eq_of_cover 14 _ (fun t _ => flushed1_eq V c wih whh bih bhh h2 h3 h4 h5 h6 h7 h8 h9 h10 h11 h12 h13 t) cover

end Cert.K1Arr

end
-- ==== Proof.KHost.lean ====
/-
  The arrays the two regions find, read back through the host operations that wrote them.

  Before the message region the host transposes the first-layer weights [64,160] to [160,64] and cuts the three row
  slabs 0–63, 64–127, 128–159, and transposes the second-layer weights: read at an entry these are the weight matrices
  at the swapped entry, the slab offset added. Before the update region the host transposes the two stacked gate
  matrices [192,64] to [64,192] and cuts the three column slabs, and cuts the two stacked bias vectors into three: read
  at an entry these are the stacked arrays at gate row q, 64 + q, 128 + q. The arguments themselves reach the regions
  unchanged.
-/
import proofs.«128147_j58059367907338_2_alg».proof.Proof.Gen.KernelIdeal.Frame
import proofs.«128147_j58059367907338_2_alg».proof.Proof.Spec
import Idealize.ShloMosaic.Lib.Pipeline.Value
import Idealize.ShloMosaic.Lib.ValueLayout
import Idealize.ShloMosaic.Lib.StableHlo.Run

set_option maxRecDepth 16384

noncomputable section

namespace Cert.KHost

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## Entering the message region -/

theorem v19_eq : (V1 m ρ c main_v19 : S64x64.Idx → EReal)
    = extractStridedSlice S64x64 ![0, 0] (transpose S160x64 [1, 0] (m ((c : Thread nD τ).loc main_arg3)) transposes_S64x160_S160x64_1_0) slices_S160x64_S64x64_0_0 := by
  show StableHlo.after hostOps0 (W0 m ρ c) (Proc.devRef .tc main_v19) = _
  after_results <;> rfl

theorem v20_eq : (V1 m ρ c main_v20 : S64x64.Idx → EReal)
    = extractStridedSlice S64x64 ![64, 0] (transpose S160x64 [1, 0] (m ((c : Thread nD τ).loc main_arg3)) transposes_S64x160_S160x64_1_0) slices_S160x64_S64x64_64_0 := by
  show StableHlo.after hostOps0 (W0 m ρ c) (Proc.devRef .tc main_v20) = _
  after_results <;> rfl

theorem v21_eq : (V1 m ρ c main_v21 : S32x64.Idx → EReal)
    = extractStridedSlice S32x64 ![128, 0] (transpose S160x64 [1, 0] (m ((c : Thread nD τ).loc main_arg3)) transposes_S64x160_S160x64_1_0) slices_S160x64_S32x64_128_0 := by
  show StableHlo.after hostOps0 (W0 m ρ c) (Proc.devRef .tc main_v21) = _
  after_results <;> rfl

theorem v22_eq : (V1 m ρ c main_v22 : S64x64.Idx → EReal) = transpose S64x64 [1, 0] (m ((c : Thread nD τ).loc main_arg5)) transposes_S64x64_S64x64_1_0 := by
  show StableHlo.after hostOps0 (W0 m ρ c) (Proc.devRef .tc main_v22) = _
  after_results <;> rfl

theorem v19_apply (a k : Fin 64) : V1 m ρ c main_v19 (ix2 a k) = (m ((c : Thread nD τ).loc main_arg3)) (ix2 k (lo a)) := by
  rw [v19_eq, slice2_axis0_apply 0 _ _ a k (lo a) (Nat.zero_add _).symm, transpose_ix2_apply]

theorem v20_apply (a k : Fin 64) : V1 m ρ c main_v20 (ix2 a k) = (m ((c : Thread nD τ).loc main_arg3)) (ix2 k (mid a)) := by
  rw [v20_eq, slice2_axis0_apply 64 _ _ a k (mid a) rfl, transpose_ix2_apply]

theorem v21_apply (a : Fin 32) (k : Fin 64) : V1 m ρ c main_v21 (ix2 a k) = (m ((c : Thread nD τ).loc main_arg3)) (ix2 k (hi a)) := by
  rw [v21_eq, slice2_axis0_apply 128 _ _ a k (hi a) rfl, transpose_ix2_apply]

theorem v22_apply (k q : Fin 64) : V1 m ρ c main_v22 (ix2 k q) = (m ((c : Thread nD τ).loc main_arg5)) (ix2 q k) := by
  rw [v22_eq, transpose_ix2_apply]

theorem arg2_eq : V1 m ρ c main_arg2 = (m ((c : Thread nD τ).loc main_arg2)) := by
  show StableHlo.after hostOps0 (W0 m ρ c) (Proc.devRef .tc main_arg2) = _
  after_results <;> rfl
theorem arg4_eq : V1 m ρ c main_arg4 = (m ((c : Thread nD τ).loc main_arg4)) := by
  show StableHlo.after hostOps0 (W0 m ρ c) (Proc.devRef .tc main_arg4) = _
  after_results <;> rfl
theorem arg6_eq : V1 m ρ c main_arg6 = (m ((c : Thread nD τ).loc main_arg6)) := by
  show StableHlo.after hostOps0 (W0 m ρ c) (Proc.devRef .tc main_arg6) = _
  after_results <;> rfl

/-! ## Between the regions: what the first region and the host operations before it leave -/

theorem W2_arg0 : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)

theorem W2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

theorem W2_arg8 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

theorem W2_arg9 : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)

theorem W2_arg10 : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)

/-! ## Entering the update region -/

theorem v30_eq : (V3 m ρ c main_v30 : S64x64.Idx → EReal)
    = extractStridedSlice S64x64 ![0, 0] (transpose S64x192 [1, 0] (W2 m ρ c (Proc.devRef .tc main_arg7)) transposes_S192x64_S64x192_1_0) slices_S64x192_S64x64_0_0 := by
  show StableHlo.after hostOps1 (W2 m ρ c) (Proc.devRef .tc main_v30) = _
  after_results <;> rfl

theorem v30_apply (k q : Fin 64) : V3 m ρ c main_v30 (ix2 k q) = (m ((c : Thread nD τ).loc main_arg7)) (ix2 (g0 q) k) := by
  rw [v30_eq, W2_arg7, slice2_axis1_apply 0 _ _ k q (g0 q) (Nat.zero_add _).symm, transpose_ix2_apply]

theorem v31_eq : (V3 m ρ c main_v31 : S64x64.Idx → EReal)
    = extractStridedSlice S64x64 ![0, 64] (transpose S64x192 [1, 0] (W2 m ρ c (Proc.devRef .tc main_arg7)) transposes_S192x64_S64x192_1_0) slices_S64x192_S64x64_0_64 := by
  show StableHlo.after hostOps1 (W2 m ρ c) (Proc.devRef .tc main_v31) = _
  after_results <;> rfl

theorem v31_apply (k q : Fin 64) : V3 m ρ c main_v31 (ix2 k q) = (m ((c : Thread nD τ).loc main_arg7)) (ix2 (g1 q) k) := by
  rw [v31_eq, W2_arg7, slice2_axis1_apply 64 _ _ k q (g1 q) rfl, transpose_ix2_apply]

theorem v32_eq : (V3 m ρ c main_v32 : S64x64.Idx → EReal)
    = extractStridedSlice S64x64 ![0, 128] (transpose S64x192 [1, 0] (W2 m ρ c (Proc.devRef .tc main_arg7)) transposes_S192x64_S64x192_1_0) slices_S64x192_S64x64_0_128 := by
  show StableHlo.after hostOps1 (W2 m ρ c) (Proc.devRef .tc main_v32) = _
  after_results <;> rfl

theorem v32_apply (k q : Fin 64) : V3 m ρ c main_v32 (ix2 k q) = (m ((c : Thread nD τ).loc main_arg7)) (ix2 (g2 q) k) := by
  rw [v32_eq, W2_arg7, slice2_axis1_apply 128 _ _ k q (g2 q) rfl, transpose_ix2_apply]

theorem v33_eq : (V3 m ρ c main_v33 : S64x64.Idx → EReal)
    = extractStridedSlice S64x64 ![0, 0] (transpose S64x192 [1, 0] (W2 m ρ c (Proc.devRef .tc main_arg8)) transposes_S192x64_S64x192_1_0) slices_S64x192_S64x64_0_0 := by
  show StableHlo.after hostOps1 (W2 m ρ c) (Proc.devRef .tc main_v33) = _
  after_results <;> rfl

theorem v33_apply (k q : Fin 64) : V3 m ρ c main_v33 (ix2 k q) = (m ((c : Thread nD τ).loc main_arg8)) (ix2 (g0 q) k) := by
  rw [v33_eq, W2_arg8, slice2_axis1_apply 0 _ _ k q (g0 q) (Nat.zero_add _).symm, transpose_ix2_apply]

theorem v34_eq : (V3 m ρ c main_v34 : S64x64.Idx → EReal)
    = extractStridedSlice S64x64 ![0, 64] (transpose S64x192 [1, 0] (W2 m ρ c (Proc.devRef .tc main_arg8)) transposes_S192x64_S64x192_1_0) slices_S64x192_S64x64_0_64 := by
  show StableHlo.after hostOps1 (W2 m ρ c) (Proc.devRef .tc main_v34) = _
  after_results <;> rfl

theorem v34_apply (k q : Fin 64) : V3 m ρ c main_v34 (ix2 k q) = (m ((c : Thread nD τ).loc main_arg8)) (ix2 (g1 q) k) := by
  rw [v34_eq, W2_arg8, slice2_axis1_apply 64 _ _ k q (g1 q) rfl, transpose_ix2_apply]

theorem v35_eq : (V3 m ρ c main_v35 : S64x64.Idx → EReal)
    = extractStridedSlice S64x64 ![0, 128] (transpose S64x192 [1, 0] (W2 m ρ c (Proc.devRef .tc main_arg8)) transposes_S192x64_S64x192_1_0) slices_S64x192_S64x64_0_128 := by
  show StableHlo.after hostOps1 (W2 m ρ c) (Proc.devRef .tc main_v35) = _
  after_results <;> rfl

theorem v35_apply (k q : Fin 64) : V3 m ρ c main_v35 (ix2 k q) = (m ((c : Thread nD τ).loc main_arg8)) (ix2 (g2 q) k) := by
  rw [v35_eq, W2_arg8, slice2_axis1_apply 128 _ _ k q (g2 q) rfl, transpose_ix2_apply]

theorem v36_eq : (V3 m ρ c main_v36 : S64.Idx → EReal) = extractStridedSlice S64 ![0] (W2 m ρ c (Proc.devRef .tc main_arg9)) slices_S192_S64_0 := by
  show StableHlo.after hostOps1 (W2 m ρ c) (Proc.devRef .tc main_v36) = _
  after_results <;> rfl

theorem v36_apply (q : Fin 64) : V3 m ρ c main_v36 (ix1 q) = (m ((c : Thread nD τ).loc main_arg9)) (ix1 (g0 q)) := by
  rw [v36_eq, W2_arg9]
  exact extractStridedSlice_apply _ _ _ (ix1 q) (ix1 (g0 q)) (fun a => by
    match a with
    | ⟨0, _⟩ => exact (Nat.zero_add _).symm)

theorem v37_eq : (V3 m ρ c main_v37 : S64.Idx → EReal) = extractStridedSlice S64 ![64] (W2 m ρ c (Proc.devRef .tc main_arg9)) slices_S192_S64_64 := by
  show StableHlo.after hostOps1 (W2 m ρ c) (Proc.devRef .tc main_v37) = _
  after_results <;> rfl

theorem v37_apply (q : Fin 64) : V3 m ρ c main_v37 (ix1 q) = (m ((c : Thread nD τ).loc main_arg9)) (ix1 (g1 q)) := by
  rw [v37_eq, W2_arg9]
  exact extractStridedSlice_apply _ _ _ (ix1 q) (ix1 (g1 q)) (fun a => by
    match a with
    | ⟨0, _⟩ => exact rfl)

theorem v38_eq : (V3 m ρ c main_v38 : S64.Idx → EReal) = extractStridedSlice S64 ![128] (W2 m ρ c (Proc.devRef .tc main_arg9)) slices_S192_S64_128 := by
  show StableHlo.after hostOps1 (W2 m ρ c) (Proc.devRef .tc main_v38) = _
  after_results <;> rfl

theorem v38_apply (q : Fin 64) : V3 m ρ c main_v38 (ix1 q) = (m ((c : Thread nD τ).loc main_arg9)) (ix1 (g2 q)) := by
  rw [v38_eq, W2_arg9]
  exact extractStridedSlice_apply _ _ _ (ix1 q) (ix1 (g2 q)) (fun a => by
    match a with
    | ⟨0, _⟩ => exact rfl)

theorem v39_eq : (V3 m ρ c main_v39 : S64.Idx → EReal) = extractStridedSlice S64 ![0] (W2 m ρ c (Proc.devRef .tc main_arg10)) slices_S192_S64_0 := by
  show StableHlo.after hostOps1 (W2 m ρ c) (Proc.devRef .tc main_v39) = _
  after_results <;> rfl

theorem v39_apply (q : Fin 64) : V3 m ρ c main_v39 (ix1 q) = (m ((c : Thread nD τ).loc main_arg10)) (ix1 (g0 q)) := by
  rw [v39_eq, W2_arg10]
  exact extractStridedSlice_apply _ _ _ (ix1 q) (ix1 (g0 q)) (fun a => by
    match a with
    | ⟨0, _⟩ => exact (Nat.zero_add _).symm)

theorem v40_eq : (V3 m ρ c main_v40 : S64.Idx → EReal) = extractStridedSlice S64 ![64] (W2 m ρ c (Proc.devRef .tc main_arg10)) slices_S192_S64_64 := by
  show StableHlo.after hostOps1 (W2 m ρ c) (Proc.devRef .tc main_v40) = _
  after_results <;> rfl

theorem v40_apply (q : Fin 64) : V3 m ρ c main_v40 (ix1 q) = (m ((c : Thread nD τ).loc main_arg10)) (ix1 (g1 q)) := by
  rw [v40_eq, W2_arg10]
  exact extractStridedSlice_apply _ _ _ (ix1 q) (ix1 (g1 q)) (fun a => by
    match a with
    | ⟨0, _⟩ => exact rfl)

theorem v41_eq : (V3 m ρ c main_v41 : S64.Idx → EReal) = extractStridedSlice S64 ![128] (W2 m ρ c (Proc.devRef .tc main_arg10)) slices_S192_S64_128 := by
  show StableHlo.after hostOps1 (W2 m ρ c) (Proc.devRef .tc main_v41) = _
  after_results <;> rfl

theorem v41_apply (q : Fin 64) : V3 m ρ c main_v41 (ix1 q) = (m ((c : Thread nD τ).loc main_arg10)) (ix1 (g2 q)) := by
  rw [v41_eq, W2_arg10]
  exact extractStridedSlice_apply _ _ _ (ix1 q) (ix1 (g2 q)) (fun a => by
    match a with
    | ⟨0, _⟩ => exact rfl)

theorem arg0_eq3 : V3 m ρ c main_arg0 = (m ((c : Thread nD τ).loc main_arg0)) := by
  show StableHlo.after hostOps1 (W2 m ρ c) (Proc.devRef .tc main_arg0) = _
  after_results
  exact W2_arg0 m ρ c

/-- The aggregated messages the update region finds: the host's scatter-add of the message array the first region
    left (its change of float format the identity), by the destination ids, into zeros. -/
theorem v27_eq : (V3 m ρ c main_v27 : S100000x64.Idx → EReal)
    = Host.scatterAdd scatter_S100000x64_S1000000x1_S1000000x64_1_0_0_1
        (broadcastInDim S100000x64 ![] bcast_S_S100000x64 (constant (F := Ideal) S_ .f32 0x00000000#32))
        (broadcastInDim S1000000x1 ![0] bcast_S1000000_S1000000x1_0 (W2 m ρ c (Proc.devRef .tc main_v3)))
        (extf .f32 (W2 m ρ c (Proc.devRef .tc main_v23)) bitsLt_bf16_f32) := by
  show StableHlo.after hostOps1 (W2 m ρ c) (Proc.devRef .tc main_v27) = _
  after_results <;> rfl

end Cert.KHost

end
-- ==== Proof.KRefTerms.lean ====
/-
  The index arrays and gathered rows of the kernel program are the reference's.

  Before its first region the kernel program slices the two rows of the edge list, wraps negative ids, makes each a
  column and gathers the source and destination rows of the node states — operation for operation what the reference
  program does before its concatenation. So the contents of those buffers at the first region's entry are, as terms,
  the stages the reference's reading names; likewise the destination ids as a column, the array of zeros and the
  scatter's dimension record that the aggregation after the first region takes. Each equation holds by unfolding:
  both sides are the same operations applied to the same two arguments.
-/
import proofs.«128147_j58059367907338_2_alg».proof.Proof.Gen.KernelIdeal.Frame
import proofs.«128147_j58059367907338_2_alg».proof.Proof.Gen.ReferenceIdeal.Read
import Idealize.ShloMosaic.Lib.StableHlo.Run

set_option maxRecDepth 16384

noncomputable section

namespace Cert.KRefTerms

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The gathered source rows: the kernel program's host operations compute the very term the reference's stage names. -/
theorem gather_src :
    Cert.KernelIdeal.Gen.V1 m ρ c Cert.KernelIdeal.main_v10
      = Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v10) = _
  after_results
  rfl

/-- The gathered destination rows, likewise. -/
theorem gather_dst :
    Cert.KernelIdeal.Gen.V1 m ρ c Cert.KernelIdeal.main_v17
      = Cert.ReferenceIdeal.Read.val_main_v17 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v17) = _
  after_results_simp
  rfl

/-- The destination ids as a column, read after the first region (which does not write them), are the reference's
    scatter indices. -/
theorem dst_ids :
    broadcastInDim Cert.KernelIdeal.S1000000x1 ![0] Cert.KernelIdeal.Gen.bcast_S1000000_S1000000x1_0
        (Cert.KernelIdeal.Gen.W2 m ρ c (Proc.devRef .tc Cert.KernelIdeal.main_v3))
      = Cert.ReferenceIdeal.Read.val_main_v31 (F := Ideal) (m ((c : Thread Cert.KernelIdeal.nD Cert.KernelIdeal.τ).loc Cert.KernelIdeal.main_arg1)) := by
  rw [Cert.KernelIdeal.Gen.W2_of_ne m ρ c Cert.KernelIdeal.main_v3 (by decide)]
  show broadcastInDim _ _ _ (StableHlo.after Cert.KernelIdeal.Gen.hostOps0 (Cert.KernelIdeal.Gen.W0 m ρ c) (Proc.devRef .tc Cert.KernelIdeal.main_v3)) = _
  after_results
  rfl

/-- The array of zeros the aggregation starts from. -/
theorem zeros :
    broadcastInDim Cert.KernelIdeal.S100000x64 ![] Cert.KernelIdeal.Gen.bcast_S_S100000x64
        (constant (F := Ideal) Cert.KernelIdeal.S_ .f32 0x00000000#32)
      = Cert.ReferenceIdeal.Read.val_main_v30 (F := Ideal) := by
  unfold Cert.ReferenceIdeal.Read.val_main_v30 Cert.ReferenceIdeal.Read.val_main_cst
  rfl

/-- The two programs' scatter dimension records are one record. -/
theorem scatter_dims :
    Cert.KernelIdeal.scatter_S100000x64_S1000000x1_S1000000x64_1_0_0_1
      = Cert.ReferenceIdeal.scatter_S100000x64_S1000000x1_S1000000x64_1_0_0_1 := rfl

end Cert.KRefTerms

end
-- ==== Proof.RefValue.lean ====
/-
  The reference program read as mathematics, index by index on the extended reals.

  Two facts. The array of messages the reference computes is the specification's `Msg` of the two gathered endpoint
  arrays, the edge features and the message network's weights: the concatenated input row of an edge is its three
  slabs, so the sum over the 160 columns is the sum of the three slab sums, in that order, plus the bias; the rectifier
  is the maximum with the word 0.0; the second layer is one more row sum plus its bias. The array of new node states is
  the specification's `Gru` of the node states, the aggregated messages and the stacked gate weights: each of the two
  affine maps is a row sum plus a bias, the three gate slabs are its columns `j`, `64 + j`, `128 + j`, the logistic
  appears as `1 / (1 + e^(-x))` with the word 1.0, and the convex combination is spelt `(1 - z)·n + z·h`.
  The gathered arrays and the aggregated messages stay unopened: they enter both sides as the same terms.
-/
import proofs.«128147_j58059367907338_2_alg».proof.Proof.Gen.ReferenceIdeal.Read
import proofs.«128147_j58059367907338_2_alg».proof.Proof.Spec
import Idealize.ShloMosaic.Lib.Pipeline.Value
import Idealize.ShloMosaic.Lib.ValueIdx
import Idealize.ShloMosaic.PureOps.Ideal.Laws

set_option maxRecDepth 4096

noncomputable section

namespace Cert.RefValue

open Cert.ReferenceIdeal Cert.ReferenceIdeal.Gen Cert.ReferenceIdeal.Read Idealize.ShloMosaic Idealize.ShloMosaic.ValueIdx
open Cert.Spec (lo mid hi g0 g1 g2)

/-- The concatenated input row of an edge at a column of the first slab is the gathered source row. -/
theorem v18_lo (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (e : Fin 1000000) (a : Fin 64) :
    val_main_v18 (F := Ideal) x0 x1 x2 (ix2 e (lo a)) = val_main_v10 (F := Ideal) x0 x1 (ix2 e a) := by
  unfold val_main_v18
  generalize val_main_v10 (F := Ideal) x0 x1 = A
  generalize val_main_v17 (F := Ideal) x0 x1 = B
  refine concatenate_apply_piece (t := S1000000x160) 1 _ _ (ix2 e (lo a)) 0 (by show (0 : Nat) < 3; omega) S1000000x64 A rfl rfl 0 rfl (ix2 e a) ?_ ?_
  · intro b hb
    match b with
    | ⟨0, _⟩ => rfl
    | ⟨1, _⟩ => exact absurd rfl hb
  · show 0 + a.val = a.val
    omega

/-- At a column of the second slab it is the gathered destination row. -/
theorem v18_mid (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (e : Fin 1000000) (a : Fin 64) :
    val_main_v18 (F := Ideal) x0 x1 x2 (ix2 e (mid a)) = val_main_v17 (F := Ideal) x0 x1 (ix2 e a) := by
  unfold val_main_v18
  generalize val_main_v10 (F := Ideal) x0 x1 = A
  generalize val_main_v17 (F := Ideal) x0 x1 = B
  refine concatenate_apply_piece (t := S1000000x160) 1 _ _ (ix2 e (mid a)) 1 (by show (1 : Nat) < 3; omega) S1000000x64 B rfl rfl 64 rfl (ix2 e a) ?_ ?_
  · intro b hb
    match b with
    | ⟨0, _⟩ => rfl
    | ⟨1, _⟩ => exact absurd rfl hb
  · show 64 + a.val = 64 + a.val
    rfl

/-- At a column of the third slab it is the edge's own feature row. -/
theorem v18_hi (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (e : Fin 1000000) (a : Fin 32) :
    val_main_v18 (F := Ideal) x0 x1 x2 (ix2 e (hi a)) = x2 (ix2 e a) := by
  unfold val_main_v18
  generalize val_main_v10 (F := Ideal) x0 x1 = A
  generalize val_main_v17 (F := Ideal) x0 x1 = B
  refine concatenate_apply_piece (t := S1000000x160) 1 _ _ (ix2 e (hi a)) 2 (by show (2 : Nat) < 3; omega) S1000000x32 x2 rfl rfl 128 rfl (ix2 e a) ?_ ?_
  · intro b hb
    match b with
    | ⟨0, _⟩ => rfl
    | ⟨1, _⟩ => exact absurd rfl hb
  · show 128 + a.val = 128 + a.val
    rfl

/-- The hidden layer before the rectifier, read off the reference program. -/
theorem v23_hid (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (e : Fin 1000000) (k : Fin 64) :
    val_main_v23 (F := Ideal) x0 x1 x2 x3 x4 (ix2 e k)
      = Cert.Spec.hid (val_main_v10 (F := Ideal) x0 x1) (val_main_v17 (F := Ideal) x0 x1) x2 x3 x4 e k := by
  have hl : ∀ c : Fin 160, lidx_main_v20 (ix2 e k) c = ix2 e c := fun c =>
    funext fun a => by match a with | ⟨0, _⟩ => rfl | ⟨1, _⟩ => rfl
  have hr : ∀ c : Fin 160, idx_main_v19 (ridx_main_v20 (ix2 e k) c) = ix2 k c := fun c =>
    funext fun a => by match a with | ⟨0, _⟩ => rfl | ⟨1, _⟩ => rfl
  have hb : idx_main_v21 (idx_main_v22 (ix2 e k)) = ix1 k :=
    funext fun a => by match a with | ⟨0, _⟩ => rfl
  rw [val_main_v23_apply, val_main_v20_apply, val_main_v22_apply, val_main_v21_apply, Ideal.addf_def, hb,
    Cert.Spec.sum_slabs]
  simp only [val_main_v19_apply, hl, hr, v18_lo, v18_mid, v18_hi]
  rfl

/-- **The message network of the reference**: every message is the specification's. -/
theorem ref_msg (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v29 (F := Ideal) x0 x1 x2 x3 x4 x5 x6
      = Cert.Spec.Msg (val_main_v10 (F := Ideal) x0 x1) (val_main_v17 (F := Ideal) x0 x1) x2 x3 x4 x5 x6 := by
  funext i
  obtain ⟨e, j, rfl⟩ : ∃ (e : Fin 1000000) (j : Fin 64), i = ix2 e j := ⟨i 0, i 1, eq_ix2 i⟩
  have hl : ∀ k : Fin 64, lidx_main_v26 (ix2 e j) k = ix2 e k := fun k =>
    funext fun a => by match a with | ⟨0, _⟩ => rfl | ⟨1, _⟩ => rfl
  have hr : ∀ k : Fin 64, idx_main_v25 (ridx_main_v26 (ix2 e j) k) = ix2 j k := fun k =>
    funext fun a => by match a with | ⟨0, _⟩ => rfl | ⟨1, _⟩ => rfl
  have hb : idx_main_v27 (idx_main_v28 (ix2 e j)) = ix1 j :=
    funext fun a => by match a with | ⟨0, _⟩ => rfl
  rw [val_main_v29_apply, val_main_v26_apply, val_main_v28_apply, val_main_v27_apply, Ideal.addf_def, hb]
  simp only [val_main_v25_apply, hl, hr, val_main_v24_apply, v23_hid, val_main_call0_v0_apply, val_main_call0_cst_apply,
    Ideal.maximumf_def, Ideal.ofBits_def]
  rfl

/-- The input-side affine map: the aggregated messages against a row of the stacked input weights, plus the bias. -/
theorem v37_lin (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal))
    (x9 : (⟨S192, .f32⟩ : BufTy).Contents (Elt Ideal)) (n : Fin 100000) (g : Fin 192) :
    val_main_v37 (F := Ideal) x0 x1 x2 x3 x4 x5 x6 x7 x9 (ix2 n g) = Cert.Spec.lin (val_main_v32 (F := Ideal) x0 x1 x2 x3 x4 x5 x6) x7 x9 n g := by
  have hl : ∀ k : Fin 64, lidx_main_v34 (ix2 n g) k = ix2 n k := fun k =>
    funext fun a => by match a with | ⟨0, _⟩ => rfl | ⟨1, _⟩ => rfl
  have hr : ∀ k : Fin 64, idx_main_v33 (ridx_main_v34 (ix2 n g) k) = ix2 g k := fun k =>
    funext fun a => by match a with | ⟨0, _⟩ => rfl | ⟨1, _⟩ => rfl
  have hb : idx_main_v35 (idx_main_v36 (ix2 n g)) = ix1 g :=
    funext fun a => by match a with | ⟨0, _⟩ => rfl
  rw [val_main_v37_apply, val_main_v34_apply, val_main_v36_apply, val_main_v35_apply, Ideal.addf_def, hb]
  generalize val_main_v32 (F := Ideal) x0 x1 x2 x3 x4 x5 x6 = agg
  simp only [val_main_v33_apply, hl, hr]
  rfl

/-- The state-side affine map: the node states against a row of the stacked state weights, plus the bias. -/
theorem v42_lin (x0 : (⟨S100000x64, .f32⟩ : BufTy).Contents (Elt Ideal)) (x8 : (⟨S192x64, .f32⟩ : BufTy).Contents (Elt Ideal))
    (x10 : (⟨S192, .f32⟩ : BufTy).Contents (Elt Ideal)) (n : Fin 100000) (g : Fin 192) :
    val_main_v42 (F := Ideal) x0 x8 x10 (ix2 n g) = Cert.Spec.lin x0 x8 x10 n g := by
  have hl : ∀ k : Fin 64, lidx_main_v39 (ix2 n g) k = ix2 n k := fun k =>
    funext fun a => by match a with | ⟨0, _⟩ => rfl | ⟨1, _⟩ => rfl
  have hr : ∀ k : Fin 64, idx_main_v38 (ridx_main_v39 (ix2 n g) k) = ix2 g k := fun k =>
    funext fun a => by match a with | ⟨0, _⟩ => rfl | ⟨1, _⟩ => rfl
  have hb : idx_main_v40 (idx_main_v41 (ix2 n g)) = ix1 g :=
    funext fun a => by match a with | ⟨0, _⟩ => rfl
  rw [val_main_v42_apply, val_main_v39_apply, val_main_v41_apply, val_main_v40_apply, Ideal.addf_def, hb]
  simp only [val_main_v38_apply, hl, hr]
  rfl

/-- The reset gate's slab of the input-side affine map. -/
theorem v43_at (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal))
    (x9 : (⟨S192, .f32⟩ : BufTy).Contents (Elt Ideal)) (n : Fin 100000) (j : Fin 64) :
    val_main_v43 (F := Ideal) x0 x1 x2 x3 x4 x5 x6 x7 x9 (ix2 n j) = Cert.Spec.lin (val_main_v32 (F := Ideal) x0 x1 x2 x3 x4 x5 x6) x7 x9 n (g0 j) := by
  rw [val_main_v43_apply, (show idx_main_v43 (ix2 n j) = ix2 n (g0 j) from funext fun a => by match a with | ⟨0, _⟩ => rfl | ⟨1, _⟩ => rfl), v37_lin]

/-- The update gate's slab of the input-side affine map. -/
theorem v44_at (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal))
    (x9 : (⟨S192, .f32⟩ : BufTy).Contents (Elt Ideal)) (n : Fin 100000) (j : Fin 64) :
    val_main_v44 (F := Ideal) x0 x1 x2 x3 x4 x5 x6 x7 x9 (ix2 n j) = Cert.Spec.lin (val_main_v32 (F := Ideal) x0 x1 x2 x3 x4 x5 x6) x7 x9 n (g1 j) := by
  rw [val_main_v44_apply, (show idx_main_v44 (ix2 n j) = ix2 n (g1 j) from funext fun a => by match a with | ⟨0, _⟩ => rfl | ⟨1, _⟩ => rfl), v37_lin]

/-- The candidate gate's slab of the input-side affine map. -/
theorem v45_at (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S192x64, .f32⟩ : BufTy).Contents (Elt Ideal))
    (x9 : (⟨S192, .f32⟩ : BufTy).Contents (Elt Ideal)) (n : Fin 100000) (j : Fin 64) :
    val_main_v45 (F := Ideal) x0 x1 x2 x3 x4 x5 x6 x7 x9 (ix2 n j) = Cert.Spec.lin (val_main_v32 (F := Ideal) x0 x1 x2 x3 x4 x5 x6) x7 x9 n (g2 j) := by
  rw [val_main_v45_apply, (show idx_main_v45 (ix2 n j) = ix2 n (g2 j) from funext fun a => by match a with | ⟨0, _⟩ => rfl | ⟨1, _⟩ => rfl), v37_lin]

/-- The reset gate's slab of the state-side affine map. -/
theorem v46_at (x0 : (⟨S100000x64, .f32⟩ : BufTy).Contents (Elt Ideal)) (x8 : (⟨S192x64, .f32⟩ : BufTy).Contents (Elt Ideal))
    (x10 : (⟨S192, .f32⟩ : BufTy).Contents (Elt Ideal)) (n : Fin 100000) (j : Fin 64) :
    val_main_v46 (F := Ideal) x0 x8 x10 (ix2 n j) = Cert.Spec.lin x0 x8 x10 n (g0 j) := by
  rw [val_main_v46_apply, (show idx_main_v46 (ix2 n j) = ix2 n (g0 j) from funext fun a => by match a with | ⟨0, _⟩ => rfl | ⟨1, _⟩ => rfl), v42_lin]

/-- The update gate's slab of the state-side affine map. -/
theorem v47_at (x0 : (⟨S100000x64, .f32⟩ : BufTy).Contents (Elt Ideal)) (x8 : (⟨S192x64, .f32⟩ : BufTy).Contents (Elt Ideal))
    (x10 : (⟨S192, .f32⟩ : BufTy).Contents (Elt Ideal)) (n : Fin 100000) (j : Fin 64) :
    val_main_v47 (F := Ideal) x0 x8 x10 (ix2 n j) = Cert.Spec.lin x0 x8 x10 n (g1 j) := by
  rw [val_main_v47_apply, (show idx_main_v47 (ix2 n j) = ix2 n (g1 j) from funext fun a => by match a with | ⟨0, _⟩ => rfl | ⟨1, _⟩ => rfl), v42_lin]

/-- The candidate gate's slab of the state-side affine map. -/
theorem v48_at (x0 : (⟨S100000x64, .f32⟩ : BufTy).Contents (Elt Ideal)) (x8 : (⟨S192x64, .f32⟩ : BufTy).Contents (Elt Ideal))
    (x10 : (⟨S192, .f32⟩ : BufTy).Contents (Elt Ideal)) (n : Fin 100000) (j : Fin 64) :
    val_main_v48 (F := Ideal) x0 x8 x10 (ix2 n j) = Cert.Spec.lin x0 x8 x10 n (g2 j) := by
  rw [val_main_v48_apply, (show idx_main_v48 (ix2 n j) = ix2 n (g2 j) from funext fun a => by match a with | ⟨0, _⟩ => rfl | ⟨1, _⟩ => rfl), v42_lin]

/-- The reset gate: the logistic of the two reset slabs' sum. -/
theorem v55_sig (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 x8 : (⟨S192x64, .f32⟩ : BufTy).Contents (Elt Ideal))
    (x9 x10 : (⟨S192, .f32⟩ : BufTy).Contents (Elt Ideal)) (n : Fin 100000) (j : Fin 64) :
    val_main_v55 (F := Ideal) x0 x1 x2 x3 x4 x5 x6 x7 x8 x9 x10 (ix2 n j)
      = Cert.Spec.sig (Cert.Spec.lin (val_main_v32 (F := Ideal) x0 x1 x2 x3 x4 x5 x6) x7 x9 n (g0 j) + Cert.Spec.lin x0 x8 x10 n (g0 j)) := by
  rw [val_main_v55_apply, val_main_v54_apply, val_main_cst_4_apply, val_main_v53_apply, val_main_v52_apply,
    val_main_cst_3_apply, val_main_v51_apply, val_main_v50_apply, val_main_v49_apply, v43_at, v46_at]
  simp only [Ideal.hostDivf_def, Ideal.hostUnary_exp_def, Ideal.hostNegf_def, Ideal.negf_def, Ideal.addf_def, Ideal.ofBits_def,
    Cert.Spec.sig]

/-- The update gate: the logistic of the two update slabs' sum. -/
theorem v62_sig (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 x8 : (⟨S192x64, .f32⟩ : BufTy).Contents (Elt Ideal))
    (x9 x10 : (⟨S192, .f32⟩ : BufTy).Contents (Elt Ideal)) (n : Fin 100000) (j : Fin 64) :
    val_main_v62 (F := Ideal) x0 x1 x2 x3 x4 x5 x6 x7 x8 x9 x10 (ix2 n j)
      = Cert.Spec.sig (Cert.Spec.lin (val_main_v32 (F := Ideal) x0 x1 x2 x3 x4 x5 x6) x7 x9 n (g1 j) + Cert.Spec.lin x0 x8 x10 n (g1 j)) := by
  rw [val_main_v62_apply, val_main_v61_apply, val_main_cst_6_apply, val_main_v60_apply, val_main_v59_apply,
    val_main_cst_5_apply, val_main_v58_apply, val_main_v57_apply, val_main_v56_apply, v44_at, v47_at]
  simp only [Ideal.hostDivf_def, Ideal.hostUnary_exp_def, Ideal.hostNegf_def, Ideal.negf_def, Ideal.addf_def, Ideal.ofBits_def,
    Cert.Spec.sig]

/-- **The gated update of the reference**: every new node state is the specification's. -/
theorem ref_gru (x0 : (⟨S100000x64, .f32⟩ : BufTy).Contents (Elt Ideal)) (x1 : (⟨S2x1000000, .i32⟩ : BufTy).Contents (Elt Ideal))
    (x2 : (⟨S1000000x32, .f32⟩ : BufTy).Contents (Elt Ideal)) (x3 : (⟨S64x160, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 x8 : (⟨S192x64, .f32⟩ : BufTy).Contents (Elt Ideal))
    (x9 x10 : (⟨S192, .f32⟩ : BufTy).Contents (Elt Ideal)) :
    val_main_v70 (F := Ideal) x0 x1 x2 x3 x4 x5 x6 x7 x8 x9 x10
      = Cert.Spec.Gru x0 (val_main_v32 (F := Ideal) x0 x1 x2 x3 x4 x5 x6) x7 x8 x9 x10 := by
  funext i
  obtain ⟨n, j, rfl⟩ : ∃ (n : Fin 100000) (j : Fin 64), i = ix2 n j := ⟨i 0, i 1, eq_ix2 i⟩
  rw [val_main_v70_apply, val_main_v68_apply, val_main_v69_apply, val_main_v67_apply, val_main_v66_apply,
    val_main_cst_7_apply, val_main_v65_apply, val_main_v64_apply, val_main_v63_apply, v62_sig, v55_sig, v45_at, v48_at]
  simp only [Ideal.hostUnary_tanh_def, Ideal.subf_def, Ideal.mulf_def, Ideal.addf_def, Ideal.ofBits_def,
    Cert.Spec.Gru, Cert.Spec.gruAt]

end Cert.RefValue

end
-- ==== Proof.Bridge.lean ====
/-
  The kernel program's result is the reference's.

  After the message region the message array is the specification's messages of the gathered endpoint rows, the edge
  features and the message network's weights; the host then scatter-adds it by destination into zeros; after the update
  region the result array is the specification's gated update of the node states and those aggregated messages. The
  reference computes, stage by stage, the same gathered rows, the same messages (its one 160-column product being the
  sum of the three slab products), the same scatter-add and the same update (its logistic spelt out as a quotient). So
  both programs end with one array of the arguments, whatever their values: no finiteness is used.
-/
import proofs.«128147_j58059367907338_2_alg».proof.Defs
import proofs.«128147_j58059367907338_2_alg».proof.Proof.Gen.Pre_finite_inputs
import proofs.«128147_j58059367907338_2_alg».proof.Proof.Gen.Kernel.Frame
import proofs.«128147_j58059367907338_2_alg».proof.Proof.Gen.KernelIdeal.Frame
import proofs.«128147_j58059367907338_2_alg».proof.Proof.Gen.ReferenceIdeal.Run
import proofs.«128147_j58059367907338_2_alg».proof.Proof.Gen.ReferenceIdeal.Read
import proofs.«128147_j58059367907338_2_alg».proof.Proof.KRun
import proofs.«128147_j58059367907338_2_alg».proof.Proof.K0Arr
import proofs.«128147_j58059367907338_2_alg».proof.Proof.K1Arr
import proofs.«128147_j58059367907338_2_alg».proof.Proof.KHost
import proofs.«128147_j58059367907338_2_alg».proof.Proof.KRefTerms
import proofs.«128147_j58059367907338_2_alg».proof.Proof.RefValue

set_option maxRecDepth 16384

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The message array the first region leaves. -/
theorem msgs : W2 m ρ c (Proc.devRef .tc main_v23)
    = Cert.Spec.Msg (V1 m ρ c main_v10) (V1 m ρ c main_v17) (m ((c : Thread nD τ).loc main_arg2)) (m ((c : Thread nD τ).loc main_arg3)) (m ((c : Thread nD τ).loc main_arg4)) (m ((c : Thread nD τ).loc main_arg5)) (m ((c : Thread nD τ).loc main_arg6)) := by
  have h := Cert.K0Arr.final0 (V1 m ρ) c (m ((c : Thread nD τ).loc main_arg3)) (m ((c : Thread nD τ).loc main_arg5))
    (Cert.KHost.v19_apply m ρ c) (Cert.KHost.v20_apply m ρ c) (Cert.KHost.v21_apply m ρ c) (Cert.KHost.v22_apply m ρ c)
  rw [Cert.KHost.arg2_eq, Cert.KHost.arg4_eq, Cert.KHost.arg6_eq] at h
  exact (W2_arr m ρ c 9).trans h

/-- The aggregated messages the second region finds are the reference's. -/
theorem agg : V3 m ρ c main_v27 = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.KHost.v27_eq, msgs, Cert.KRefTerms.gather_src m ρ c, Cert.KRefTerms.gather_dst m ρ c, ← Cert.RefValue.ref_msg,
    Cert.KRefTerms.dst_ids m ρ c, Cert.KRefTerms.zeros]
  rfl

/-- The result array the second region leaves is the reference's result stage. -/
theorem result : W4 m ρ c (Proc.devRef .tc main_v42) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := Cert.K1Arr.final1 (V3 m ρ) c (m ((c : Thread nD τ).loc main_arg7)) (m ((c : Thread nD τ).loc main_arg8)) (m ((c : Thread nD τ).loc main_arg9)) (m ((c : Thread nD τ).loc main_arg10))
    (Cert.KHost.v30_apply m ρ c) (Cert.KHost.v31_apply m ρ c) (Cert.KHost.v32_apply m ρ c)
    (Cert.KHost.v33_apply m ρ c) (Cert.KHost.v34_apply m ρ c) (Cert.KHost.v35_apply m ρ c)
    (Cert.KHost.v36_apply m ρ c) (Cert.KHost.v37_apply m ρ c) (Cert.KHost.v38_apply m ρ c)
    (Cert.KHost.v39_apply m ρ c) (Cert.KHost.v40_apply m ρ c) (Cert.KHost.v41_apply m ρ c)
  rw [Cert.KHost.arg0_eq3, agg, ← Cert.RefValue.ref_gru] at h
  exact (W4_arr m ρ c 14).trans h

end Cert.Bridge

/-! ## The claims -/

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the reference's result stage of those arguments. -/
theorem algebraic : Cert.algebraic_KernelIdeal_ReferenceIdeal := by
  intro m ρ m' ρ' _ hagree
  refine ⟨fun c => Cert.ReferenceIdeal.Read.val_main_v70 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    (θ_run Cert.KernelIdeal.defs _ _).mono (fun r h c => ⟨(h c).1.trans (Cert.Bridge.result m ρ c), (h c).2⟩)
      (Cert.KernelIdeal.Run.run_vals m ρ), ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9, a10⟩ := hagree c
  rw [(h c).1, Cert.ReferenceIdeal.Read.val_main_v70_eq, a0, a1, a2, a3, a4, a5, a6, a7, a8, a9, a10]

end Cert.Proof.Claims

end
-- ==== Proof.lean ====
/-
  One message-passing step of a graph network — gather the endpoint rows of every edge, a two-layer message network,
  a scatter-add of the messages by destination, a gated update of the node states — computed by two tiled regions with
  host operations between them, against the plain array program.

  On the extended reals the two programs compute one function of the arguments. The first region's three slab products
  are the reference's one product over the 160 joined columns, a sum over 160 columns being the sum over its three
  slabs in any additive commutative monoid; the second region's per-gate products are the reference's product against
  the stacked gate rows, read at the gate's rows; the region's logistic is the reference's quotient 1 / (1 + e^(-x)); the
  changes of float format are the identity. The gathers and the scatter-add are the same host operations on both sides
  and are never opened. Nothing needs the inputs finite. The three programs terminate with their arguments unchanged,
  and the idealized kernel program is the printed one read on the extended reals, nothing rewritten.
-/
import proofs.«128147_j58059367907338_2_alg».proof.Defs
import proofs.«128147_j58059367907338_2_alg».proof.Proof.Gen.Kernel
import proofs.«128147_j58059367907338_2_alg».proof.Proof.Gen.KernelIdeal
import proofs.«128147_j58059367907338_2_alg».proof.Proof.Gen.ReferenceIdeal
import proofs.«128147_j58059367907338_2_alg».proof.Proof.Gen.Pre_finite_inputs
import proofs.«128147_j58059367907338_2_alg».proof.Proof.Gen.ReferenceIdeal.Run
import proofs.«128147_j58059367907338_2_alg».proof.Proof.Gen.ReferenceIdeal.Read
import proofs.«128147_j58059367907338_2_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
